-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S512x64 : Shape := ⟨2, ![512, 64]⟩
abbrev S512 : Shape := ⟨1, ![512]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg3 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_cst_6 : FVec F S_ .f32 := constant S_ .f32 0x00000000#32
  let main_v19 : FVec F S512 .f32 := broadcastInDim S512 ![] bcast_S_S512 main_cst_6
  let main_v20 : IVec S512 1 := cmpf .une main_arg3 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v18 main_v21
  main_v22

def fn {F : FTy → Type} [FloatOps F] (main_arg0 : FVec F S2048x64 .f32) (main_arg1 : FVec F S512x64 .f32) (main_arg2 : FVec F S512x64 .f32) (main_arg3 : FVec F S512 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg3 main_v13 main_v16
-- ==== Kernel.lean ====
abbrev S2048x64 : Shape := ⟨2, ![2048, 64]⟩
abbrev S512x64 : Shape := ⟨2, ![512, 64]⟩
abbrev S512 : Shape := ⟨1, ![512]⟩
abbrev S_ : Shape := ⟨0, ![]⟩
abbrev S1x512 : Shape := ⟨2, ![1, 512]⟩
abbrev S8x512 : Shape := ⟨2, ![8, 512]⟩
abbrev S64x512 : Shape := ⟨2, ![64, 512]⟩
abbrev S64x1024 : Shape := ⟨2, ![64, 1024]⟩
abbrev S2048x512 : Shape := ⟨2, ![2048, 512]⟩
abbrev S1024x64 : Shape := ⟨2, ![1024, 64]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 40
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S512x64, .f32⟩
  | .hbm, ⟨2, _⟩ => ⟨S512x64, .f32⟩
  | .hbm, ⟨3, _⟩ => ⟨S512, .f32⟩
  | .hbm, ⟨4, _⟩ => ⟨S512x64, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S512x64, .f32⟩
  | .hbm, ⟨10, _⟩ => ⟨S_, .f32⟩
  | .hbm, ⟨11, _⟩ => ⟨S512, .f32⟩
  | .hbm, ⟨12, _⟩ => ⟨S512x64, .f32⟩
  | .hbm, ⟨13, _⟩ => ⟨S_, .f32⟩
  | .hbm, ⟨14, _⟩ => ⟨S512, .f32⟩
  | .hbm, ⟨15, _⟩ => ⟨S512x64, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S8x512, .f32⟩
  | .hbm, ⟨36, _⟩ => ⟨S64x512, .f32⟩
  | .hbm, ⟨37, _⟩ => ⟨S64x512, .f32⟩
  | .hbm, ⟨38, _⟩ => ⟨S64x1024, .f32⟩
  | .hbm, ⟨39, _⟩ => ⟨S2048x512, .f32⟩
  | .local _ .vmem, ⟨0, _⟩ => ⟨S1024x64, .f32⟩
  | .local _ .vmem, ⟨1, _⟩ => ⟨S1024x64, .f32⟩
  | .local _ .vmem, ⟨2, _⟩ => ⟨S64x1024, .f32⟩
  | .local _ .vmem, ⟨3, _⟩ => ⟨S8x512, .f32⟩
  | .local _ .vmem, ⟨4, _⟩ => ⟨S1024x512, .f32⟩
  | .local _ .vmem, ⟨5, _⟩ => ⟨S1024x512, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x64_S512_d1 : S512x64.ReducesTo [1] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  concatenates_S1x512_S1x512_S1x512_S1x512_S1x512_S1x512_S1x512_S1x512_S8x512_d0 : Shape.Concatenates [S1x512, S1x512, S1x512, S1x512, S1x512, S1x512, S1x512, S1x512] S8x512 0
  transposes_S512x64_S64x512_1_0 : S512x64.Transposes [1, 0] S64x512
  concatenates_S64x512_S64x512_S64x1024_d1 : Shape.Concatenates [S64x512, S64x512] S64x1024 1
  inb_S1024x64_S1024x64_0_0 : ∀ a, (![0, 0] : Fin 2 → Nat) a + S1024x64.size a ≤ S1024x64.size a
  h_S1024x64 : 0 < S1024x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  slices_S1024x1024_o0_0_S1024x512 : S1024x1024.Slices ![0, 0] S1024x512
  slices_S1024x1024_o0_512_S1024x512 : S1024x1024.Slices ![0, 512] S1024x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  slices_S8x512_o1_0_S1x512 : S8x512.Slices ![1, 0] S1x512
  slices_S8x512_o2_0_S1x512 : S8x512.Slices ![2, 0] S1x512
  slices_S8x512_o3_0_S1x512 : S8x512.Slices ![3, 0] S1x512
  slices_S8x512_o4_0_S1x512 : S8x512.Slices ![4, 0] S1x512
  slices_S8x512_o5_0_S1x512 : S8x512.Slices ![5, 0] S1x512
  reduces_S1024x64_S1024 : S1024x64.Reduces [1] S1024
  shapeCasts_S1024_S1024x1 : S1024.ShapeCasts S1024x1
  broadcasts_S1x512_S1024x512 : S1x512.Broadcasts S1024x512
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S2048x64.size a
  hwx0_0 : ∀ i : grid0.Coords, EltTy.bits .f32 = 32 ∨ (Rect.block (s := S2048x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S2048x512.size a
  hwx0_3 : ∀ i : grid0.Coords, EltTy.bits .f32 = 32 ∨ (Rect.block (s := S2048x512) S1024x512.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x64 : Shape := ⟨2, ![2048, 64]⟩
abbrev S512x64 : Shape := ⟨2, ![512, 64]⟩
abbrev S512 : Shape := ⟨1, ![512]⟩
abbrev S_ : Shape := ⟨0, ![]⟩
abbrev S2048x512 : Shape := ⟨2, ![2048, 512]⟩
abbrev S1x512 : Shape := ⟨2, ![1, 512]⟩
abbrev S2048x512x1 : Shape := ⟨3, ![2048, 512, 1]⟩
abbrev S1x512x64 : Shape := ⟨3, ![1, 512, 64]⟩
abbrev S2048x512x64 : Shape := ⟨3, ![2048, 512, 64]⟩
abbrev S2048x1x64 : Shape := ⟨3, ![2048, 1, 64]⟩

abbrev nBuf : Space → Nat
  | .hbm => 79
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S512x64, .f32⟩
  | .hbm, ⟨2, _⟩ => ⟨S512x64, .f32⟩
  | .hbm, ⟨3, _⟩ => ⟨S512, .f32⟩
  | .hbm, ⟨4, _⟩ => ⟨S512x64, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S2048x512, .f32⟩
  | .hbm, ⟨10, _⟩ => ⟨S512x64, .f32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S1x512, .f32⟩
  | .hbm, ⟨17, _⟩ => ⟨S2048x512, .f32⟩
  | .hbm, ⟨18, _⟩ => ⟨S2048x512, .f32⟩
  | .hbm, ⟨19, _⟩ => ⟨S2048x512x1, .f32⟩
  | .hbm, ⟨20, _⟩ => ⟨S1x512x64, .f32⟩
  | .hbm, ⟨21, _⟩ => ⟨S2048x512x64, .f32⟩
  | .hbm, ⟨22, _⟩ => ⟨S2048x512x64, .f32⟩
  | .hbm, ⟨23, _⟩ => ⟨S2048x512x64, .f32⟩
  | .hbm, ⟨24, _⟩ => ⟨S1x512x64, .f32⟩
  | .hbm, ⟨25, _⟩ => ⟨S2048x512x64, .f32⟩
  | .hbm, ⟨26, _⟩ => ⟨S2048x512x64, .f32⟩
  | .hbm, ⟨27, _⟩ => ⟨S_, .f32⟩
  | .hbm, ⟨28, _⟩ => ⟨S2048x512, .f32⟩
  | .hbm, ⟨29, _⟩ => ⟨S2048x512x64, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .i1⟩
  | .hbm, ⟨39, _⟩ => ⟨S_, .f32⟩
  | .hbm, ⟨40, _⟩ => ⟨S2048x512, .f32⟩
  | .hbm, ⟨41, _⟩ => ⟨S2048x512, .i1⟩
  | .hbm, ⟨42, _⟩ => ⟨S_, .f32⟩
  | .hbm, ⟨43, _⟩ => ⟨S_, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512x1, .f32⟩
  | .hbm, ⟨51, _⟩ => ⟨S1x512x64, .f32⟩
  | .hbm, ⟨52, _⟩ => ⟨S2048x512x64, .f32⟩
  | .hbm, ⟨53, _⟩ => ⟨S2048x512x64, .f32⟩
  | .hbm, ⟨54, _⟩ => ⟨S2048x512x64, .f32⟩
  | .hbm, ⟨55, _⟩ => ⟨S_, .f32⟩
  | .hbm, ⟨56, _⟩ => ⟨S2048x512, .f32⟩
  | .hbm, ⟨57, _⟩ => ⟨S2048x512, .f32⟩
  | .hbm, ⟨58, _⟩ => ⟨S2048x512x1, .f32⟩
  | .hbm, ⟨59, _⟩ => ⟨S1x512x64, .f32⟩
  | .hbm, ⟨60, _⟩ => ⟨S2048x512x64, .f32⟩
  | .hbm, ⟨61, _⟩ => ⟨S2048x512x64, .f32⟩
  | .hbm, ⟨62, _⟩ => ⟨S2048x512x64, .f32⟩
  | .hbm, ⟨63, _⟩ => ⟨S2048x512x64, .f32⟩
  | .hbm, ⟨64, _⟩ => ⟨S2048x1x64, .f32⟩
  | .hbm, ⟨65, _⟩ => ⟨S2048x512x64, .f32⟩
  | .hbm, ⟨66, _⟩ => ⟨S2048x512x64, .f32⟩
  | .hbm, ⟨67, _⟩ => ⟨S2048x512x64, .f32⟩
  | .hbm, ⟨68, _⟩ => ⟨S_, .f32⟩
  | .hbm, ⟨69, _⟩ => ⟨S2048x512, .f32⟩
  | .hbm, ⟨70, _⟩ => ⟨S2048x512, .f32⟩
  | .hbm, ⟨71, _⟩ => ⟨S512, .f32⟩
  | .hbm, ⟨72, _⟩ => ⟨S_, .f32⟩
  | .hbm, ⟨73, _⟩ => ⟨S512, .f32⟩
  | .hbm, ⟨74, _⟩ => ⟨S512, .f32⟩
  | .hbm, ⟨75, _⟩ => ⟨S1x512, .f32⟩
  | .hbm, ⟨76, _⟩ => ⟨S2048x512, .f32⟩
  | .hbm, ⟨77, _⟩ => ⟨S2048x512, .f32⟩
  | .hbm, ⟨78, _⟩ => ⟨S2048x512, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_4 : Ref sig .tc := ⟨.hbm, 46, rfl⟩
abbrev main_call3_v0 : Ref sig .tc := ⟨.hbm, 47, rfl⟩
abbrev main_call3_v1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  reducesTo_S512x64_S512_d1 : S512x64.ReducesTo [1] S512
  h_S_ : 0 < S_.numel
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S2048x512_S2048x512x1_0_1 : S2048x512.BroadcastsInDim S2048x512x1 (![0, 1] : Fin 2 → Fin S2048x512x1.rank)
  bcast_S512x64_S1x512x64_1_2 : S512x64.BroadcastsInDim S1x512x64 (![1, 2] : Fin 2 → Fin S1x512x64.rank)
  bcast_S2048x512x1_S2048x512x64_0_1_2 : S2048x512x1.BroadcastsInDim S2048x512x64 (![0, 1, 2] : Fin 3 → Fin S2048x512x64.rank)
  bcast_S1x512x64_S2048x512x64_0_1_2 : S1x512x64.BroadcastsInDim S2048x512x64 (![0, 1, 2] : Fin 3 → Fin S2048x512x64.rank)
  reducesTo_S2048x512x64_S2048x512_d2 : S2048x512x64.ReducesTo [2] S2048x512
  bcast_S_S2048x512 : S_.BroadcastsInDim S2048x512 (![] : Fin 0 → Fin S2048x512.rank)
  bcast_S2048x64_S2048x1x64_0_2 : S2048x64.BroadcastsInDim S2048x1x64 (![0, 2] : Fin 2 → Fin S2048x1x64.rank)
  bcast_S2048x1x64_S2048x512x64_0_1_2 : S2048x1x64.BroadcastsInDim S2048x512x64 (![0, 1, 2] : Fin 3 → Fin S2048x512x64.rank)
  bcast_S_S512 : S_.BroadcastsInDim S512 (![] : Fin 0 → Fin S512.rank)
  dot_S2048x64_S512x64_S2048x512_1_1_0_0_n_n_wf : DotDims.WF S2048x64 S512x64 S2048x512 [1] [1] [0] [0] [] []

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

class Facts : Prop extends Facts₀ where

variable [Facts]
-- ==== Proof.FrameKernel.lean ====
import proofs.«112784_j62148176773493_2_alg».proof.Proof.Gen.Kernel.Launch
import proofs.«112784_j62148176773493_2_alg».proof.Proof.Gen.Kernel.Skeleton
import proofs.«112784_j62148176773493_2_alg».proof.Proof.Gen.Kernel.Points
import Idealize.ShloMosaic.Lib.Pipeline.FrameBody
import Idealize.ShloMosaic.Lib.Ring
import Idealize.ShloMosaic.Lib.Tactic

/-!
# The frame of the kernel program

The program is a stretch of array operations followed by one gridded kernel call. The grid has two points. Four
windows are staged: the first argument, 2048×64, in row blocks of 1024; a 64×1024 array and an 8×512 array computed
by the operations before the call, each taken whole; and the result, 2048×512, in row blocks of 1024. At each point
the body reads its three input buffers whole and overwrites the whole output buffer with one value computed from them.

This file shows that every fair execution terminates without fault, says what every staged array holds at the end
in terms of what the arrays held when the grid was entered, and concludes that the four arguments end unchanged.
-/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- What core `c`'s arrays hold when the grid is entered: the launch contents `m` with the results of the array
    operations that precede the call written over them, in program order. -/
abbrev V (c : Dev nD) (b : Ref sig .tc) : Buf (Elt F) ((c : Thread nD τ).loc b) :=
  StableHlo.after hostOps0 (fun b => m (c, b)) b

/-- None of those operations allocates. -/
theorem hostOps0_fresh : (hostOps0 : List (HloOp τ sig (Elt F))).Forall fun op => op.fresh = ∅ := by
  simp only [List.Forall]; repeat' constructor

/-- The program is that stretch of operations and then the gridded call, entered with the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- None of the operations that run before the grid writes argument 0, so the grid finds it as it was at launch. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))
/-- None of the operations that run before the grid writes argument 1, so the grid finds it as it was at launch. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))
/-- None of the operations that run before the grid writes argument 2, so the grid finds it as it was at launch. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))
/-- None of the operations that run before the grid writes argument 3, so the grid finds it as it was at launch. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-! ## The windows' blocks -/

/-- The block of window `w` at grid point `t`, read from the window's array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: at every grid point its current buffer holds the window's block of the array, whether the block
    was copied in at that point or is still there from an earlier point at which the block index was the same. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: at every grid point its current buffer holds the window's block of the array, whether the block
    was copied in at that point or is still there from an earlier point at which the block index was the same. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: at every grid point its current buffer holds the window's block of the array, whether the block
    was copied in at that point or is still there from an earlier point at which the block index was the same. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the final arrays to the unchanged arguments -/

/-- If the run ends with every staged array at what the proof data computes and every other array as the grid found it,
    then the four arguments end as launched: the first is a staged input, which no point writes back, and the other three
    are staged by no window; in each case what the grid found there is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What the body reads and writes -/

/-- Each access of the body is to a whole buffer: the rectangle at the origin with the buffer's own extents. -/
abbrev r0 : Rect S1024x64 := Rect.unit (s := S1024x64) ![0, 0] S1024x64.size inb_S1024x64_S1024x64_0_0
abbrev r1 : Rect S64x1024 := Rect.unit (s := S64x1024) ![0, 0] S64x1024.size inb_S64x1024_S64x1024_0_0
abbrev r2 : Rect S8x512 := Rect.unit (s := S8x512) ![0, 0] S8x512.size inb_S8x512_S8x512_0_0
abbrev r3 : Rect S1024x512 := Rect.unit (s := S1024x512) ![0, 0] S1024x512.size inb_S1024x512_S1024x512_0_0

/-- What the output buffer holds after the body, from what the three input buffers hold: the body's single store, over
    the whole buffer, of the exponential of the value computed from the three whole-buffer reads. -/
def out3 (x0 : Vec F S1024x64 .f32) (x1 : Vec F S64x1024 .f32) (x2 : Vec F S8x512 .f32) : Vec F S1024x512 .f32 :=
  View.canon [⟨r3, k0_pay1 (k0_pay2 (View.ld x0 r0) (View.ld x1 r1) (View.ld x2 r2))⟩]

/-- That one store covers every index of the output buffer. -/
theorem cover3 (p0 : Vec F S1024x512 .f32) (y : S1024x512.Idx) :
    ∃ pc ∈ ([⟨r3, p0⟩] : List (View.Piece (Elt F) S1024x512 .f32)), y ∈ pc.1.set :=
  View.cover_of_tiled [⟨r3, p0⟩] S1024x512.size (by rfl) y

/-! ## The body -/

set_option maxHeartbeats 1000000 in
/-- The body, run on whole buffers of which the three inputs hold `x0`, `x1`, `x2` and the output holds anything,
    ends with the inputs as they were and the output at `out3 x0 x1 x2`. The body also reads the output buffer once
    before storing to it; the value read is used nowhere, so whatever the buffer held makes no difference. -/
theorem sound_kernel (c : Dev nD) (E : Set ℕ) (i : grid0.Coords)
    (arg1 : Memref sig .tc .vmem S1024x64 .f32) (harg1 : arg1.IsWhole) (arg2 : Memref sig .tc .vmem S64x1024 .f32) (harg2 : arg2.IsWhole)
    (arg3 : Memref sig .tc .vmem S8x512 .f32) (harg3 : arg3.IsWhole) (arg4 : Memref sig .tc .vmem S1024x512 .f32) (harg4 : arg4.IsWhole)
    (x0 : Vec F S1024x64 .f32) (x1 : Vec F S64x1024 .f32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data of the grid -/

/-- The proof data on core `c`: the arrays as the grid finds them; after the body at point `t`, each input buffer
    still at its block and the output buffer at `out3` of the three input blocks; nothing carried from point to point
    beyond the core's untouched scratch and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

/-- The proof data's arrays are the contents at the grid's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

/-- Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body's obligation at a grid point -/

/-- What the body is given at point `t`: the invariant, what is owed, and the four current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so `sound_kernel` applies; the invariant and what is
    owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch theorem asks of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates, and every
    final state has each staged array at what the proof data computes and every other unscoped array as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its four arguments unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frame

end
-- ==== Proof.FrameKernelIdeal.lean ====
import proofs.«112784_j62148176773493_2_alg».proof.Proof.Gen.KernelIdeal.Launch
import proofs.«112784_j62148176773493_2_alg».proof.Proof.Gen.KernelIdeal.Skeleton
import proofs.«112784_j62148176773493_2_alg».proof.Proof.Gen.KernelIdeal.Points
import Idealize.ShloMosaic.Lib.Pipeline.FrameBody
import Idealize.ShloMosaic.Lib.Ring
import Idealize.ShloMosaic.Lib.Tactic

/-!
# The frame of the kernel program

The program is a stretch of array operations followed by one gridded kernel call. The grid has two points. Four
windows are staged: the first argument, 2048×64, in row blocks of 1024; a 64×1024 array and an 8×512 array computed
by the operations before the call, each taken whole; and the result, 2048×512, in row blocks of 1024. At each point
the body reads its three input buffers whole and overwrites the whole output buffer with one value computed from them.

This file shows that every fair execution terminates without fault, says what every staged array holds at the end
in terms of what the arrays held when the grid was entered, and concludes that the four arguments end unchanged.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- What core `c`'s arrays hold when the grid is entered: the launch contents `m` with the results of the array
    operations that precede the call written over them, in program order. -/
abbrev V (c : Dev nD) (b : Ref sig .tc) : Buf (Elt F) ((c : Thread nD τ).loc b) :=
  StableHlo.after hostOps0 (fun b => m (c, b)) b

/-- None of those operations allocates. -/
theorem hostOps0_fresh : (hostOps0 : List (HloOp τ sig (Elt F))).Forall fun op => op.fresh = ∅ := by
  simp only [List.Forall]; repeat' constructor

/-- The program is that stretch of operations and then the gridded call, entered with the arrays at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- None of the operations that run before the grid writes argument 0, so the grid finds it as it was at launch. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))
/-- None of the operations that run before the grid writes argument 1, so the grid finds it as it was at launch. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))
/-- None of the operations that run before the grid writes argument 2, so the grid finds it as it was at launch. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))
/-- None of the operations that run before the grid writes argument 3, so the grid finds it as it was at launch. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-! ## The windows' blocks -/

/-- The block of window `w` at grid point `t`, read from the window's array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0: at every grid point its current buffer holds the window's block of the array, whether the block
    was copied in at that point or is still there from an earlier point at which the block index was the same. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: at every grid point its current buffer holds the window's block of the array, whether the block
    was copied in at that point or is still there from an earlier point at which the block index was the same. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: at every grid point its current buffer holds the window's block of the array, whether the block
    was copied in at that point or is still there from an earlier point at which the block index was the same. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the final arrays to the unchanged arguments -/

/-- If the run ends with every staged array at what the proof data computes and every other array as the grid found it,
    then the four arguments end as launched: the first is a staged input, which no point writes back, and the other three
    are staged by no window; in each case what the grid found there is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What the body reads and writes -/

/-- Each access of the body is to a whole buffer: the rectangle at the origin with the buffer's own extents. -/
abbrev r0 : Rect S1024x64 := Rect.unit (s := S1024x64) ![0, 0] S1024x64.size inb_S1024x64_S1024x64_0_0
abbrev r1 : Rect S64x1024 := Rect.unit (s := S64x1024) ![0, 0] S64x1024.size inb_S64x1024_S64x1024_0_0
abbrev r2 : Rect S8x512 := Rect.unit (s := S8x512) ![0, 0] S8x512.size inb_S8x512_S8x512_0_0
abbrev r3 : Rect S1024x512 := Rect.unit (s := S1024x512) ![0, 0] S1024x512.size inb_S1024x512_S1024x512_0_0

/-- What the output buffer holds after the body, from what the three input buffers hold: the body's single store, over
    the whole buffer, of the exponential of the value computed from the three whole-buffer reads. -/
def out3 (x0 : Vec F S1024x64 .f32) (x1 : Vec F S64x1024 .f32) (x2 : Vec F S8x512 .f32) : Vec F S1024x512 .f32 :=
  View.canon [⟨r3, k0_pay1 (k0_pay2 (View.ld x0 r0) (View.ld x1 r1) (View.ld x2 r2))⟩]

/-- That one store covers every index of the output buffer. -/
theorem cover3 (p0 : Vec F S1024x512 .f32) (y : S1024x512.Idx) :
    ∃ pc ∈ ([⟨r3, p0⟩] : List (View.Piece (Elt F) S1024x512 .f32)), y ∈ pc.1.set :=
  View.cover_of_tiled [⟨r3, p0⟩] S1024x512.size (by rfl) y

/-! ## The body -/

set_option maxHeartbeats 1000000 in
/-- The body, run on whole buffers of which the three inputs hold `x0`, `x1`, `x2` and the output holds anything,
    ends with the inputs as they were and the output at `out3 x0 x1 x2`. The body also reads the output buffer once
    before storing to it; the value read is used nowhere, so whatever the buffer held makes no difference. -/
theorem sound_kernel (c : Dev nD) (E : Set ℕ) (i : grid0.Coords)
    (arg1 : Memref sig .tc .vmem S1024x64 .f32) (harg1 : arg1.IsWhole) (arg2 : Memref sig .tc .vmem S64x1024 .f32) (harg2 : arg2.IsWhole)
    (arg3 : Memref sig .tc .vmem S8x512 .f32) (harg3 : arg3.IsWhole) (arg4 : Memref sig .tc .vmem S1024x512 .f32) (harg4 : arg4.IsWhole)
    (x0 : Vec F S1024x64 .f32) (x1 : Vec F S64x1024 .f32) (x2 : Vec F S8x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data of the grid -/

/-- The proof data on core `c`: the arrays as the grid finds them; after the body at point `t`, each input buffer
    still at its block and the output buffer at `out3` of the three input blocks; nothing carried from point to point
    beyond the core's untouched scratch and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

/-- The proof data's arrays are the contents at the grid's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

/-- Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body's obligation at a grid point -/

/-- What the body is given at point `t`: the invariant, what is owed, and the four current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so `sound_kernel` applies; the invariant and what is
    owed pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch theorem asks of the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the cores terminates, and every
    final state has each staged array at what the proof data computes and every other unscoped array as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its four arguments unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frame

end
-- ==== Proof.Spec.lean ====
/-
  The two sides of the claim, entry by entry, as functions on the extended reals.

  Inputs: points `x b` (2048 of them) and, for each of 512 units `u`, a segment from `q1 u` to `q2 u` in a
  64-dimensional space, and a radius `r u`.  Write `q12 = q2 - q1`, `qn2 = |q12|²`, `qn = √qn2` and
  `s = x·q12 - q1·q12` (the scalar projection of `x - q1` on the segment's direction, scaled by `qn`).

  * The reference (`outR`) forms the projection vector `kv = (s / qn) · q12`, reads the sign of `kv·q12` and the
    ratio `|kv| / qn`, picks a weight `l ∈ {1, |kv|, 0}`, the centre `l·q1 + (1-l)·q2`, and returns
    `exp (-|x - centre|² / (64 · r²))`.
  * The kernel (`outK`) picks `l ∈ {1, |s|, 0}` from the sign of `s` and the comparison `|s| < qn`, expands
    `|x - q2 + l·q12|²` as `(|x|² - 2 x·q2 + |q2|²) + 2l (x·q12 - q2·q12) + l² qn2`, and returns
    `exp (that · (-1 / (64 · r²)))`.

  The two agree for finite inputs with every radius nonzero (Proof/Algebra.lean).  Also here: the real numbers
  the float words spelled by the two programs denote.
-/
import Idealize.ShloMosaic.PureOps.Ideal

noncomputable section

namespace Cert.Spec

open Idealize.ShloMosaic

/-! ## The float words the programs spell -/

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num

/-! ## What both sides share -/

section
variable (x : Fin 2048 → Fin 64 → EReal) (q1 q2 : Fin 512 → Fin 64 → EReal) (r : Fin 512 → EReal)

/-- The segment's direction. -/
def q12 (u : Fin 512) (n : Fin 64) : EReal := q2 u n - q1 u n
/-- Its squared length. -/
def qn2 (u : Fin 512) : EReal := ∑ n, q12 q1 q2 u n * q12 q1 q2 u n
/-- Its length. -/
def qn (u : Fin 512) : EReal := Ideal.sqrt (qn2 q1 q2 u)
def xq12 (b : Fin 2048) (u : Fin 512) : EReal := ∑ n, x b n * q12 q1 q2 u n
def q1q12 (u : Fin 512) : EReal := ∑ n, q1 u n * q12 q1 q2 u n
def q2q12 (u : Fin 512) : EReal := ∑ n, q2 u n * q12 q1 q2 u n
def q2q2 (u : Fin 512) : EReal := ∑ n, q2 u n * q2 u n
def xq2 (b : Fin 2048) (u : Fin 512) : EReal := ∑ n, x b n * q2 u n
def xx (b : Fin 2048) : EReal := ∑ n, x b n * x b n
/-- `(x - q1)·q12`. -/
def s (b : Fin 2048) (u : Fin 512) : EReal := xq12 x q1 q2 b u - q1q12 q1 q2 u
/-- `64 · r²`: the divisor of the exponent. -/
def den (u : Fin 512) : EReal := ((64 : ℝ) : EReal) * (r u * r u)

/-! ## The reference, entry `(b, u)` -/

def kv (b : Fin 2048) (u : Fin 512) (n : Fin 64) : EReal := Ideal.div (s x q1 q2 b u) (qn q1 q2 u) * q12 q1 q2 u n
def temp1 (b : Fin 2048) (u : Fin 512) : EReal := ∑ n, kv x q1 q2 b u n * q12 q1 q2 u n
def knorm (b : Fin 2048) (u : Fin 512) : EReal := Ideal.sqrt (∑ n, kv x q1 q2 b u n * kv x q1 q2 b u n)
def temp2 (b : Fin 2048) (u : Fin 512) : EReal := Ideal.div (knorm x q1 q2 b u) (qn q1 q2 u)
def lR (b : Fin 2048) (u : Fin 512) : EReal :=
  if temp1 x q1 q2 b u < 0 then 1 else if temp2 x q1 q2 b u < 1 then knorm x q1 q2 b u else 0
def dR (b : Fin 2048) (u : Fin 512) (n : Fin 64) : EReal :=
  x b n - (lR x q1 q2 b u * q1 u n + (1 - lR x q1 q2 b u) * q2 u n)
def outR (b : Fin 2048) (u : Fin 512) : EReal :=
  Ideal.exp (Ideal.div (-(∑ n, dR x q1 q2 b u n * dR x q1 q2 b u n)) (den r u))

/-! ## The kernel, entry `(b, u)` -/

def absS (b : Fin 2048) (u : Fin 512) : EReal := max (s x q1 q2 b u) (-(s x q1 q2 b u))
def lK (b : Fin 2048) (u : Fin 512) : EReal :=
  if s x q1 q2 b u < 0 then 1 else if absS x q1 q2 b u < qn q1 q2 u then absS x q1 q2 b u else 0
def sumd2K (b : Fin 2048) (u : Fin 512) : EReal :=
  ((xx x b - ((2 : ℝ) : EReal) * xq2 x q2 b u) + q2q2 q2 u)
    + (((2 : ℝ) : EReal) * lK x q1 q2 b u) * (xq12 x q1 q2 b u - q2q12 q1 q2 u)
    + (lK x q1 q2 b u * lK x q1 q2 b u) * qn2 q1 q2 u
def coef (u : Fin 512) : EReal := Ideal.div (((-1 : ℝ) : EReal)) (den r u)
def outK (b : Fin 2048) (u : Fin 512) : EReal :=
  Ideal.exp (sumd2K x q1 q2 b u * coef r u)

end

end Cert.Spec

end
-- ==== Proof.KernelCell.lean ====
/-
  One entry of the kernel's output block, as a function of the three blocks the body loads.

  The body multiplies its 1024 x 64 block of points by the 64 x 1024 operand whose left half holds the segment
  directions and whose right half the segment ends, column by column; takes each point's squared length by a sum
  along the row; reads six per-unit numbers off the rows of the 8 x 512 operand; and combines them entry by entry.
  Read at row `p` and unit `u`, the product's two halves are the two dot products of the point with the unit's
  direction and end, and everything else is pointwise.
-/
import proofs.«112784_j62148176773493_2_alg».proof.Proof.Gen.KernelIdeal.Skeleton
import proofs.«112784_j62148176773493_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Cell

open Idealize.ShloMosaic Idealize.ShloMosaic.ValueIdx Cert.KernelIdeal Cert.KernelIdeal.Gen

/-- The block product's dimension record: rows of the left operand against columns of the right. -/
abbrev DD : DotDims S1024x64 S64x1024 S1024x1024 := dot_S1024x64_S64x1024_S1024x1024_1_0_0_1_n_n

/-- Along the product's row axis the left operand's index is the output's row. -/
theorem lhs_row (i : S1024x1024.Idx) (q : DD.contr.Idx) : (DD.lhsIdx i q 0).val = (i 0).val := by
  unfold DotDims.lhsIdx
  rw [dif_neg (show ¬(0 : Fin S1024x64.rank) ∈ DD.lhsBatch by decide), dif_pos (show (0 : Fin S1024x64.rank) ∈ DD.lhsNonContracting by decide)]
  rfl
/-- Along the product's column axis the right operand's index is the output's column. -/
theorem rhs_col (i : S1024x1024.Idx) (q : DD.contr.Idx) : (DD.rhsIdx i q 1).val = (i 1).val := by
  unfold DotDims.rhsIdx
  rw [dif_neg (show ¬(1 : Fin S64x1024.rank) ∈ DD.rhsBatch by decide), dif_pos (show (1 : Fin S64x1024.rank) ∈ DD.rhsNonContracting by decide)]
  rfl

/-- The block product into a zero accumulator. -/
abbrev tile (x0 : FVec Ideal S1024x64 .f32) (x1 : FVec Ideal S64x1024 .f32) : FVec Ideal S1024x1024 .f32 :=
  matmul DD (some .fp32) x0 x1 (constant S1024x1024 .f32 0x00000000#32)

/-- At row `p` and column `j` it is the row of the left operand against the column of the right one. -/
theorem tile_at (x0 : FVec Ideal S1024x64 .f32) (x1 : FVec Ideal S64x1024 .f32) (p : Fin 1024) (j : Fin 1024) :
    tile x0 x1 (ix2 p j) = ∑ k : Fin 64, x0 (ix2 p k) * x1 (ix2 k j) := by
  simp only [tile, matmul]
  rw [Ideal.matmul_constant_zero_apply, ← Equiv.sum_comp (contrEquiv1 DD 64 rfl rfl).symm]
  refine Finset.sum_congr rfl fun k _ => ?_
  have hk := contrEquiv1_symm_val DD 64 rfl rfl k
  have el : DD.lhsIdx (ix2 p j) ((contrEquiv1 DD 64 rfl rfl).symm k) = ix2 p k := funext fun a => Fin.ext (by
    match a with
    | ⟨0, _⟩ => exact lhs_row _ _
    | ⟨1, _⟩ => exact (DD.lhsIdx_val_of_single rfl _ _).trans hk)
  have er : DD.rhsIdx (ix2 p j) ((contrEquiv1 DD 64 rfl rfl).symm k) = ix2 k j := funext fun a => Fin.ext (by
    match a with
    | ⟨0, _⟩ => exact (DD.rhsIdx_val_of_single rfl _ _).trans hk
    | ⟨1, _⟩ => exact rhs_col _ _)
  rw [el, er]

/-- A row's sum of squares: the lane sum of the squared block, kept as a column and stretched over the units, read
    at row `p`. -/
theorem rowsq_at (x0 : FVec Ideal S1024x64 .f32) (p : Fin 1024) (u : Fin 512) :
    broadcastTo S1024x512 (shapeCast S1024x1 (multiReduction (F := Ideal) .add [1] S1024 (mulf x0 x0) 0x00000000#32
        Facts₀.reduces_S1024x64_S1024 (.inl rfl) rfl) Facts₀.shapeCasts_S1024_S1024x1) Facts₀.broadcasts_S1024x1_S1024x512 (ix2 p u)
      = ∑ n : Fin 64, x0 (ix2 p n) * x0 (ix2 p n) := by
  rw [broadcastTo_apply _ _ _ (ix2 p (0 : Fin 1)) (fun a => by match a with | ⟨0, _⟩ => rfl | ⟨1, _⟩ => rfl)]
  rw [shapeCast_apply _ _ _ (ix1 p) (by rw [Shape.rowMajor_val_one, Shape.rowMajor_val_two]; show p.val = p.val * 1 + 0; omega)]
  refine (Ideal.multiReduction_add_single (mulf x0 x0) 0x00000000#32 Facts₀.reduces_S1024x64_S1024 (.inl rfl) rfl (ix1 p)).trans ?_
  refine Finset.sum_congr rfl fun n _ => ?_
  show x0 _ * x0 _ = _
  have e : Facts₀.reduces_S1024x64_S1024.lift (ix1 p) n = ix2 p n := funext fun a => Fin.ext (by
    match a with
    | ⟨0, _⟩ => rfl
    | ⟨1, _⟩ => rfl)
  rw [e]
  rfl

/-- One of the six per-unit rows of the small operand, stretched over the block's rows, read at `(p, u)`: row `k` at
    unit `u`. -/
theorem statrow_at (x2 : FVec Ideal S8x512 .f32) (o : Nat) (h : S8x512.Slices ![o, 0] S1x512) (k : Fin 8) (hk : k.val = o)
    (p : Fin 1024) (u : Fin 512) :
    broadcastTo S1024x512 (extractStridedSlice S1x512 ![o, 0] x2 h) Facts₀.broadcasts_S1x512_S1024x512 (ix2 p u) = x2 (ix2 k u) :=
  (broadcastTo_1b_ab_apply _ _ p u).trans (slice2_axis0_apply o x2 h (0 : Fin 1) u k (by simp [hk]))

/-- The left half of the product: column `u`. -/
theorem lefthalf_at (v : FVec Ideal S1024x1024 .f32) (p : Fin 1024) (u : Fin 512) :
    extractStridedSlice S1024x512 ![0, 0] v Facts₀.slices_S1024x1024_o0_0_S1024x512 (ix2 p u) = v (ix2 p (Fin.castLE (by decide) u)) :=
  slice2_axis1_apply 0 v _ p u _ (by simp)
/-- The right half of the product: column `512 + u`. -/
theorem righthalf_at (v : FVec Ideal S1024x1024 .f32) (p : Fin 1024) (u : Fin 512) :
    extractStridedSlice S1024x512 ![0, 512] v Facts₀.slices_S1024x1024_o0_512_S1024x512 (ix2 p u) = v (ix2 p (Fin.natAdd 512 u)) :=
  slice2_axis1_apply 512 v _ p u _ (by show 512 + u.val = 512 + u.val; rfl)

/-! ## The pointwise tail -/

/-- The weight as the body selects it: `1` where `s` is negative, else `|s|` where that is below the segment's
    length, else `0` — over the comparison words and the float words the body spells. -/
def sel0 (s qnorm : EReal) : EReal :=
  Scalar.select (Ideal.cmp .olt s (Ideal.ofBits .f32 0x00000000#32)) (Ideal.ofBits .f32 0x3F800000#32)
    (Scalar.select (Ideal.cmp .olt (max s (-s)) qnorm) (max s (-s)) (Ideal.ofBits .f32 0x00000000#32))

/-- The entry from the nine numbers it depends on, operation by operation as the body computes it. -/
def cell0 (xx xq12 xq2 q1q12 q2q12 qn2 q2q2 coef qnorm : EReal) : EReal :=
  Ideal.exp (((((xx - Ideal.ofBits .f32 0x40000000#32 * xq2) + q2q2)
      + (Ideal.ofBits .f32 0x40000000#32 * sel0 (xq12 - q1q12) qnorm) * (xq12 - q2q12))
      + (sel0 (xq12 - q1q12) qnorm * sel0 (xq12 - q1q12) qnorm) * qn2) * coef)

/-- The same weight with the comparisons as propositions and the words as numbers. -/
def selS (s qnorm : EReal) : EReal := if s < 0 then 1 else if max s (-s) < qnorm then max s (-s) else 0

/-- The same entry with the words as numbers. -/
def cellS (xx xq12 xq2 q1q12 q2q12 qn2 q2q2 coef qnorm : EReal) : EReal :=
  Ideal.exp (((((xx - ((2 : ℝ) : EReal) * xq2) + q2q2)
      + (((2 : ℝ) : EReal) * selS (xq12 - q1q12) qnorm) * (xq12 - q2q12))
      + (selS (xq12 - q1q12) qnorm * selS (xq12 - q1q12) qnorm) * qn2) * coef)

/-- A select on a less-than word is the `if` on the inequality. -/
theorem select_olt (x y a b : EReal) : Scalar.select (Ideal.cmp .olt x y) a b = if x < y then a else b := by
  by_cases h : x < y
  · simp [Ideal.cmp, Scalar.select, h]
  · simp [Ideal.cmp, Scalar.select, h]

theorem sel0_eq (s qnorm : EReal) : sel0 s qnorm = selS s qnorm := by
  unfold sel0 selS
  rw [select_olt, select_olt, Cert.Spec.ofBits_zero, Cert.Spec.ofBits_one]

theorem cell0_eq (xx xq12 xq2 q1q12 q2q12 qn2 q2q2 coef qnorm : EReal) :
    cell0 xx xq12 xq2 q1q12 q2q12 qn2 q2q2 coef qnorm = cellS xx xq12 xq2 q1q12 q2q12 qn2 q2q2 coef qnorm := by
  unfold cell0 cellS
  rw [sel0_eq, Cert.Spec.ofBits_two]

/-! ## The payload -/

/-- The body's result block is, entry by entry, `cell0` of: the row's squared length, the two halves of the block
    product, and the six per-unit rows. -/
theorem payload_eq (x0 : FVec Ideal S1024x64 .f32) (x1 : FVec Ideal S64x1024 .f32) (x2 : FVec Ideal S8x512 .f32) :
    k0_pay1 (F := Ideal) (k0_pay2 (F := Ideal) x0 x1 x2) = fun i =>
      cell0
        (broadcastTo S1024x512 (shapeCast S1024x1 (multiReduction (F := Ideal) .add [1] S1024 (mulf x0 x0) 0x00000000#32
          Facts₀.reduces_S1024x64_S1024 (.inl rfl) rfl) Facts₀.shapeCasts_S1024_S1024x1) Facts₀.broadcasts_S1024x1_S1024x512 i)
        (extractStridedSlice S1024x512 ![0, 0] (tile x0 x1) Facts₀.slices_S1024x1024_o0_0_S1024x512 i)
        (extractStridedSlice S1024x512 ![0, 512] (tile x0 x1) Facts₀.slices_S1024x1024_o0_512_S1024x512 i)
        (broadcastTo S1024x512 (extractStridedSlice S1x512 ![0, 0] x2 Facts₀.slices_S8x512_o0_0_S1x512) Facts₀.broadcasts_S1x512_S1024x512 i)
        (broadcastTo S1024x512 (extractStridedSlice S1x512 ![1, 0] x2 Facts₀.slices_S8x512_o1_0_S1x512) Facts₀.broadcasts_S1x512_S1024x512 i)
        (broadcastTo S1024x512 (extractStridedSlice S1x512 ![2, 0] x2 Facts₀.slices_S8x512_o2_0_S1x512) Facts₀.broadcasts_S1x512_S1024x512 i)
        (broadcastTo S1024x512 (extractStridedSlice S1x512 ![3, 0] x2 Facts₀.slices_S8x512_o3_0_S1x512) Facts₀.broadcasts_S1x512_S1024x512 i)
        (broadcastTo S1024x512 (extractStridedSlice S1x512 ![4, 0] x2 Facts₀.slices_S8x512_o4_0_S1x512) Facts₀.broadcasts_S1x512_S1024x512 i)
        (broadcastTo S1024x512 (extractStridedSlice S1x512 ![5, 0] x2 Facts₀.slices_S8x512_o5_0_S1x512) Facts₀.broadcasts_S1x512_S1024x512 i) := by
  unfold k0_pay1 k0_pay2
  simp only [shapeCast_self]
  rfl

/-- The body's result at row `p` and unit `u`. -/
theorem payload_at (x0 : FVec Ideal S1024x64 .f32) (x1 : FVec Ideal S64x1024 .f32) (x2 : FVec Ideal S8x512 .f32)
    (p : Fin 1024) (u : Fin 512) :
    k0_pay1 (F := Ideal) (k0_pay2 (F := Ideal) x0 x1 x2) (ix2 p u)
      = cellS (∑ n : Fin 64, x0 (ix2 p n) * x0 (ix2 p n))
          (∑ k : Fin 64, x0 (ix2 p k) * x1 (ix2 k (Fin.castLE (by decide) u)))
          (∑ k : Fin 64, x0 (ix2 p k) * x1 (ix2 k (Fin.natAdd 512 u)))
          (x2 (ix2 0 u)) (x2 (ix2 1 u)) (x2 (ix2 2 u)) (x2 (ix2 3 u)) (x2 (ix2 4 u)) (x2 (ix2 5 u)) := by
  rw [payload_eq]
  show cell0 _ _ _ _ _ _ _ _ _ = _
  rw [cell0_eq, rowsq_at, lefthalf_at, righthalf_at, tile_at, tile_at,
    statrow_at x2 0 _ 0 rfl, statrow_at x2 1 _ 1 rfl, statrow_at x2 2 _ 2 rfl, statrow_at x2 3 _ 3 rfl,
    statrow_at x2 4 _ 4 rfl, statrow_at x2 5 _ 5 rfl]

end Cert.KernelIdeal.Cell

end
-- ==== Proof.KernelArray.lean ====
import proofs.«112784_j62148176773493_2_alg».proof.Proof.FrameKernelIdeal
import proofs.«112784_j62148176773493_2_alg».proof.Proof.KernelCell
import Idealize.ShloMosaic.Lib.Pipeline.Value
import Idealize.ShloMosaic.Lib.ValueIdx

/-!
# The result array as one function of the arrays the grid reads

The grid has two points; point `t` reads rows `1024 t … 1024 t + 1023` of the 2048×64 array of points, the whole
64×1024 array and the whole 8×512 array, and writes rows `1024 t … 1024 t + 1023` of the 2048×512 result. Each entry
the body writes depends only on its own row of the points, on two columns of the 64×1024 array and on one column of the
8×512 array. So the result at row `b`, unit `u` is that same function of row `b` of the whole array of points: the
row-block structure disappears. The two row blocks tile the result, so the whole result array is this function.
-/

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the grid reads and writes -/

/-- The four staged arrays: the points, the 64×1024 array, the 8×512 array, and the result. -/
theorem arrRef0 : Pipeline.arrRef spec0 0 = main_arg0 := rfl
theorem arrRef1 : Pipeline.arrRef spec0 1 = main_v27 := rfl
theorem arrRef2 : Pipeline.arrRef spec0 2 = main_v24 := rfl
theorem arrRef3 : Pipeline.arrRef spec0 3 = main_v28 := rfl

/-- The points, one per row, as the grid finds them. -/
abbrev arrX (c : Dev nD) : S2048x64.Idx → EReal := Frame.V m c main_arg0
/-- The 64×1024 array as the grid finds it. -/
abbrev arrW (c : Dev nD) : S64x1024.Idx → EReal := Frame.V m c main_v27
/-- The 8×512 array as the grid finds it. -/
abbrev arrS (c : Dev nD) : S8x512.Idx → EReal := Frame.V m c main_v24

/-- The result at row `i 0` and unit `i 1`: the entry function of the row's sum of squares, of the row against
    columns `i 1` and `512 + i 1` of the 64×1024 array, and of rows 0 to 5 of the 8×512 array at column `i 1`. -/
def G (c : Dev nD) : S2048x512.Idx → EReal := fun i =>
  Cell.cellS (∑ n : Fin 64, arrX m c (ix2 (i 0 : Fin 2048) n) * arrX m c (ix2 (i 0 : Fin 2048) n))
    (∑ k : Fin 64, arrX m c (ix2 (i 0 : Fin 2048) k) * arrW m c (ix2 k (Fin.castLE (by decide) (i 1 : Fin 512))))
    (∑ k : Fin 64, arrX m c (ix2 (i 0 : Fin 2048) k) * arrW m c (ix2 k (Fin.natAdd 512 (i 1 : Fin 512))))
    (arrS m c (ix2 0 (i 1 : Fin 512))) (arrS m c (ix2 1 (i 1 : Fin 512))) (arrS m c (ix2 2 (i 1 : Fin 512)))
    (arrS m c (ix2 3 (i 1 : Fin 512))) (arrS m c (ix2 4 (i 1 : Fin 512))) (arrS m c (ix2 5 (i 1 : Fin 512)))

/-- The same, at a row and a unit given separately. -/
theorem G_apply (c : Dev nD) (b : Fin 2048) (u : Fin 512) :
    G m c (ix2 b u) = Cell.cellS (∑ n : Fin 64, arrX m c (ix2 b n) * arrX m c (ix2 b n))
      (∑ k : Fin 64, arrX m c (ix2 b k) * arrW m c (ix2 k (Fin.castLE (by decide) u)))
      (∑ k : Fin 64, arrX m c (ix2 b k) * arrW m c (ix2 k (Fin.natAdd 512 u)))
      (arrS m c (ix2 0 u)) (arrS m c (ix2 1 u)) (arrS m c (ix2 2 u))
      (arrS m c (ix2 3 u)) (arrS m c (ix2 4 u)) (arrS m c (ix2 5 u)) := rfl

/-! ## Where each window's block sits -/

theorem origin_zero : (![0, 0] : Fin 2 → Nat) = fun _ => 0 := funext fun a => by fin_cases a <;> rfl

/-- The block indices at grid point `t`: the points and the result move down one row block per point; the two small
    arrays stay whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 2 := by
  have h : t.val < grid0.N := t.isLt
  rw [N_0] at h
  exact h

/-- The entry function respects equality argument by argument. -/
theorem cellS_congr {a1 a2 a3 a4 a5 a6 a7 a8 a9 b1 b2 b3 b4 b5 b6 b7 b8 b9 : EReal}
    (h1 : a1 = b1) (h2 : a2 = b2) (h3 : a3 = b3) (h4 : a4 = b4) (h5 : a5 = b5) (h6 : a6 = b6) (h7 : a7 = b7)
    (h8 : a8 = b8) (h9 : a9 = b9) :
    Cell.cellS a1 a2 a3 a4 a5 a6 a7 a8 a9 = Cell.cellS b1 b2 b3 b4 b5 b6 b7 b8 b9 := by
  subst h1 h2 h3 h4 h5 h6 h7 h8 h9; rfl

/-! ## What one grid point writes back -/

/-- Row `p` of the points' block at point `t` is row `1024 t + p` of the array of points. -/
theorem blockX_at (c : Dev nD) (t : Fin cfg0.N) (p : Fin 1024) (n : Fin 64) (row : Fin 2048)
    (hrow : row.val = t.val * 1024 + p.val) :
    Frame.iblk m c 0 t (ix2 p n) = arrX m c (ix2 row n) := by
  obtain ⟨e0, e1, -, -, -, -, -, -⟩ := index_facts t
  show Frame.V m c main_arg0 (((cfg0.win 0).blk t).view.emb (ix2 p n)) = Frame.V m c main_arg0 (ix2 row n)
  refine congrArg (Frame.V m c main_arg0) ?_
  funext a; apply Fin.ext
  match a with
  | ⟨0, _⟩ => show win0_0.index t (0 : Fin 2) * 1024 + 1 * p.val = row.val; omega
  | ⟨1, _⟩ => show win0_0.index t (1 : Fin 2) * 64 + 1 * n.val = n.val; omega

/-- The 64×1024 block at any point is the whole array. -/
theorem blockW_at (c : Dev nD) (t : Fin cfg0.N) (k : Fin 64) (j : Fin 1024) :
    Frame.iblk m c 1 t (ix2 k j) = arrW m c (ix2 k j) := by
  obtain ⟨-, -, e0, e1, -, -, -, -⟩ := index_facts t
  show Frame.V m c main_v27 (((cfg0.win 1).blk t).view.emb (ix2 k j)) = Frame.V m c main_v27 (ix2 k j)
  refine congrArg (Frame.V m c main_v27) ?_
  funext a; apply Fin.ext
  match a with
  | ⟨0, _⟩ => show win0_1.index t (0 : Fin 2) * 64 + 1 * k.val = k.val; omega
  | ⟨1, _⟩ => show win0_1.index t (1 : Fin 2) * 1024 + 1 * j.val = j.val; omega

/-- The 8×512 block at any point is the whole array. -/
theorem blockS_at (c : Dev nD) (t : Fin cfg0.N) (r : Fin 8) (u : Fin 512) :
    Frame.iblk m c 2 t (ix2 r u) = arrS m c (ix2 r u) := by
  obtain ⟨-, -, -, -, e0, e1, -, -⟩ := index_facts t
  show Frame.V m c main_v24 (((cfg0.win 2).blk t).view.emb (ix2 r u)) = Frame.V m c main_v24 (ix2 r u)
  refine congrArg (Frame.V m c main_v24) ?_
  funext a; apply Fin.ext
  match a with
  | ⟨0, _⟩ => show win0_2.index t (0 : Fin 2) * 8 + 1 * r.val = r.val; omega
  | ⟨1, _⟩ => show win0_2.index t (1 : Fin 2) * 512 + 1 * u.val = u.val; omega

/-- Entry `(p, u)` of the result's block at point `t` is entry `(1024 t + p, u)` of the result array. -/
theorem blockOut_at (t : Fin cfg0.N) (p : Fin 1024) (u : Fin 512) (row : Fin 2048)
    (hrow : row.val = t.val * 1024 + p.val) :
    ((cfg0.win 3).blk t).view.emb (ix2 p u) = ix2 row u := by
  obtain ⟨-, -, -, -, -, -, e0, e1⟩ := index_facts t
  funext a; apply Fin.ext
  match a with
  | ⟨0, _⟩ => show win0_3.index t (0 : Fin 2) * 1024 + 1 * p.val = row.val; omega
  | ⟨1, _⟩ => show win0_3.index t (1 : Fin 2) * 512 + 1 * u.val = u.val; omega

/-- What point `t` writes back is its row block of `G`. -/
theorem flushed3_eq (c : Dev nD) (t : Fin cfg0.N) :
    (Frame.dats m 0 c).flushed 3 t = ((cfg0.win 3).blk t).view.read (Elt Ideal) (G m c) := by
  show (cfg0.win 3).cut (grid0.coords t) ((Frame.dats m 0 c).after 3 t) = _
  rw [Frame.after3]
  unfold Frame.out3
  rw [View.canon_unit_zero origin_zero]
  simp only [View.ld_unit_zero (S := S1024x64) origin_zero, View.ld_unit_zero (S := S64x1024) origin_zero,
    View.ld_unit_zero (S := S8x512) origin_zero]
  funext y
  obtain ⟨p, u, rfl⟩ : ∃ (p : Fin 1024) (u : Fin 512), y = ix2 p u := ⟨y 0, y 1, eq_ix2 y⟩
  have ht := point_lt t
  have hrow : t.val * 1024 + p.val < 2048 := by have := p.isLt; omega
  show k0_pay1 (F := Ideal) (k0_pay2 (F := Ideal) (Frame.iblk m c 0 t) (Frame.iblk m c 1 t) (Frame.iblk m c 2 t)) (ix2 p u)
    = G m c (((cfg0.win 3).blk t).view.emb (ix2 p u))
  rw [blockOut_at t p u ⟨t.val * 1024 + p.val, hrow⟩ rfl, G_apply]
  refine (Cell.payload_at _ _ _ p u).trans ?_
  exact cellS_congr
    (Finset.sum_congr rfl fun n _ => by rw [blockX_at m c t p n ⟨t.val * 1024 + p.val, hrow⟩ rfl])
    (Finset.sum_congr rfl fun k _ => by rw [blockX_at m c t p k ⟨t.val * 1024 + p.val, hrow⟩ rfl, blockW_at m c t k _])
    (Finset.sum_congr rfl fun k _ => by rw [blockX_at m c t p k ⟨t.val * 1024 + p.val, hrow⟩ rfl, blockW_at m c t k _])
    (blockS_at m c t 0 u) (blockS_at m c t 1 u) (blockS_at m c t 2 u)
    (blockS_at m c t 3 u) (blockS_at m c t 4 u) (blockS_at m c t 5 u)

/-! ## The two row blocks tile the result -/

/-- An index of the result is in point `t`'s block iff each coordinate is in the block's range on its axis. -/
theorem mem_blk3 (t : Fin cfg0.N) (i : S2048x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v28).slice (win0_3.rect t)).set ↔ _
  rw [View.set_slice_whole, Rect.mem_set_unit]
  exact Iff.rfl

/-- Row `b` of the result lies in the block of point `b / 1024`, and both points write their block back. -/
theorem cover (i : S2048x512.Idx) :
    ∃ t : Fin cfg0.N, (cfg0.win 3).flush t = true ∧ i ∈ ((cfg0.win 3).blk t).view.set := by
  have hi0 : (i 0).val < 2048 := (i 0).isLt
  have hi1 : (i 1).val < 512 := (i 1).isLt
  have hN : (i 0).val / 1024 < grid0.N := by rw [N_0]; omega
  obtain ⟨-, -, -, -, -, -, e0, e1⟩ := index_facts ⟨(i 0).val / 1024, hN⟩
  refine ⟨⟨(i 0).val / 1024, hN⟩, flush0_3 _, ?_⟩
  rw [mem_blk3]
  intro a
  match a with
  | ⟨0, _⟩ =>
    show win0_3.index ⟨(i 0).val / 1024, hN⟩ (0 : Fin 2) * 1024 ≤ (i 0).val
      ∧ (i 0).val < win0_3.index ⟨(i 0).val / 1024, hN⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, hN⟩ (1 : Fin 2) * 512 ≤ (i 1).val
      ∧ (i 1).val < win0_3.index ⟨(i 0).val / 1024, hN⟩ (1 : Fin 2) * 512 + 512
    omega

/-- After the last point the result array is `G`. -/
theorem final3 (c : Dev nD) : (Frame.dats m 0 c).arrAt 3 cfg0.N = G m c :=
  (Frame.dats m 0 c).arrAt_eq_of_cover 3 (G m c) (fun t _ => flushed3_eq m c t) cover

/-! ## The run, read -/

/-- Every fair execution terminates; the result array ends at `G` of the arrays the grid found, and the four arguments
    end as launched. -/
theorem run : θ_run defs (onTc (τ := τ) (main (F := Ideal))) ⟨m, fun _ => 0, ρ⟩ fun r => ∀ c : Dev nD,
      r.2.mem ((c : Thread nD τ).loc main_v28) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final3 m c),
      ((h c).1 0).trans (((Frame.dats m 0 c).arrAt_in 0 rfl _).trans ((Frame.A_eq m c 0).trans (Frame.V_main_arg0 m c))),
      ((h c).2 main_arg1 (Pipeline.mem_restRefs_of main_arg1 (by decide) (by decide))).trans (Frame.V_main_arg1 m c),
      ((h c).2 main_arg2 (Pipeline.mem_restRefs_of main_arg2 (by decide) (by decide))).trans (Frame.V_main_arg2 m c),
      ((h c).2 main_arg3 (Pipeline.mem_restRefs_of main_arg3 (by decide) (by decide))).trans (Frame.V_main_arg3 m c)⟩)
    (Frame.run_main m ρ)

end Cert.KernelIdeal.Result

end
-- ==== Proof.KernelOperands.lean ====
/-
  The two operands the kernel program builds on the host before its region, read entry by entry: the 64 × 1024 array
  whose left half is the transposed segment directions and whose right half the transposed second end points, and the
  8 × 512 table whose rows are the per-unit scalars (the inner products of the end points with the direction, the
  direction's squared length and length, the second end point's squared length, the exponent's coefficient).
-/
import proofs.«112784_j62148176773493_2_alg».proof.Proof.Gen.KernelIdeal.Launch
import proofs.«112784_j62148176773493_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Operands

open Cert.KernelIdeal Cert.KernelIdeal.Gen Idealize.ShloMosaic Idealize.ShloMosaic.TcCoe Idealize.SL.Sem
  Idealize.ShloMosaic.StableHlo Idealize.ShloMosaic.ValueIdx
open scoped BigOperators

/-! ## The pieces, read at an index -/

/-- A sum along the 64 coordinates, from the zero word, at unit `u`. -/
theorem sum_at (y : FVec Ideal S512x64 .f32) (u : Fin 512) :
    Host.reduceAdd (F := Ideal) y (constant S_ .f32 0x00000000#32) reducesTo_S512x64_S512_d1 h_S_ (ix1 u)
      = ∑ n : Fin 64, y (ix2 u n) := by
  simp only [Host.reduceAdd, Ideal.hostReduceAdd_def]
  rw [Ideal.hostReduceAdd_single reducesTo_S512x64_S512_d1 (by decide)]
  rw [show (constant (F := Ideal) S_ .f32 0x00000000#32) (Shape.Idx.first h_S_) = 0 from Spec.ofBits_zero, zero_add]
  refine Finset.sum_congr rfl fun k _ => ?_
  exact congrArg y (funext fun a => Fin.ext (by match a with | ⟨0, _⟩ => rfl | ⟨1, _⟩ => rfl))

/-- A vector laid out as a row reads, at `(j, u)`, the vector at `u`. -/
theorem row_at (v : FVec Ideal S512 .f32) (j : Fin 1) (u : Fin 512) :
    broadcastInDim S1x512 ![1] bcast_S512_S1x512_1 v (ix2 j u) = v (ix1 u) :=
  broadcastInDim_apply _ bcast_S512_S1x512_1 v _ _ (fun a => match a with
    | ⟨0, _⟩ => by show u.val = if (512 : Nat) = 1 then 0 else u.val; rw [if_neg (by decide)])

/-- A scalar repeated along the units reads the scalar everywhere. -/
theorem splat_at (w : FVec Ideal S_ .f32) (u : Fin 512) :
    broadcastInDim S512 ![] bcast_S_S512 w (ix1 u) = w ix0 :=
  broadcastInDim_apply _ bcast_S_S512 w _ _ (fun a => a.elim0)

/-- Eight rows stacked: row `k` of the stack is the `k`-th piece. -/
theorem stack_at (x : Fin 8 → (S1x512.Idx → EReal))
    (h : Shape.Concatenates [S1x512, S1x512, S1x512, S1x512, S1x512, S1x512, S1x512, S1x512] S8x512 0)
    (k : Fin 8) (u : Fin 512) :
    concatenate S8x512 0 [⟨S1x512, x 0⟩, ⟨S1x512, x 1⟩, ⟨S1x512, x 2⟩, ⟨S1x512, x 3⟩, ⟨S1x512, x 4⟩, ⟨S1x512, x 5⟩,
        ⟨S1x512, x 6⟩, ⟨S1x512, x 7⟩] h (ix2 k u) = x k (ix2 (0 : Fin 1) u) := by
  show concatenate S8x512 0 (List.ofFn fun n : Fin 8 => (⟨S1x512, x n⟩ : (s : Shape) × (s.Idx → EReal))) h (ix2 k u) = _
  exact concatenate_ofFn_unit_apply (t := S8x512) (s₁ := S1x512) 0 x h rfl rfl (ix2 k u) k rfl (ix2 (0 : Fin 1) u)
    (fun b hb => match b, hb with
      | ⟨0, _⟩, hb => absurd rfl hb
      | ⟨1, _⟩, _ => rfl)

section
variable (m : (ℓ : Loc nD τ sig) → Buf (Elt Ideal) ℓ) (c : Dev nD)

/-- Core `c`'s buffers after the host operations that precede the region. -/
abbrev V (b : Ref sig .tc) : Buf (Elt Ideal) ((c : Thread nD τ).loc b) :=
  StableHlo.after hostOps0 (fun b => m (c, b)) b

/-- The first end points, the second end points and the radii as launched. -/
abbrev A1 : FVec Ideal S512x64 .f32 := m ((c : Thread nD τ).loc main_arg1)
abbrev A2 : FVec Ideal S512x64 .f32 := m ((c : Thread nD τ).loc main_arg2)
abbrev A3 : FVec Ideal S512 .f32 := m ((c : Thread nD τ).loc main_arg3)
/-- The same by coordinates. -/
abbrev q1 : Fin 512 → Fin 64 → EReal := fun u n => m ((c : Thread nD τ).loc main_arg1) (ix2 u n)
abbrev q2 : Fin 512 → Fin 64 → EReal := fun u n => m ((c : Thread nD τ).loc main_arg2) (ix2 u n)
abbrev r : Fin 512 → EReal := fun u => m ((c : Thread nD τ).loc main_arg3) (ix1 u)

/-- One buffer after the host operations, when no concatenation is on the way: each operation's result at its own
    buffer is its function of its operands' contents, and at any other buffer what was there. -/
local macro "host_read" : tactic =>
  `(tactic| (simp (disch := decide) only [after_cons, after_nil, nullary_result', unary_result', binary_result',
    nullary_result_ne', unary_result_ne', binary_result_ne', nary_result_ne']))

/-- An operation with eight literal operands writes its function of the eight operands' contents, each read at its own
    buffer. -/
theorem nary8_result {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal))
    (hxs hy) (G : Valuation τ sig (Elt Ideal)) :
    (nary (τ := τ) ![x0, x1, x2, x3, x4, x5, x6, x7] y f hxs hy).result G (Proc.devRef .tc y)
      = Function.eval (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) f := by
  rw [nary_result]; show f _ = f _; congr 1; funext k; fin_cases k <;> rfl

/-! ## The 64 × 1024 operand -/

set_option maxRecDepth 8192 in
set_option maxHeartbeats 4000000 in
/-- It is the two transposed arrays side by side. -/
theorem w_term : (V m c main_v27 : S64x1024.Idx → EReal)
    = concatenate S64x1024 1 [⟨S64x512, V m c main_v25⟩, ⟨S64x512, V m c main_v26⟩] concatenates_S64x512_S64x512_S64x1024_d1 := by
  dsimp only [V, hostOps0]
  simp only [after_cons, after_nil]
  rw [binary_result]
  iterate 2 (rw [binary_result_ne]; rotate_left; decide)

set_option maxRecDepth 8192 in
set_option maxHeartbeats 4000000 in
/-- The left one is the transposed direction. -/
theorem w25_term : (V m c main_v25 : S64x512.Idx → EReal)
    = transpose S64x512 [1, 0] (subf (A2 m c) (A1 m c)) transposes_S512x64_S64x512_1_0 := by
  dsimp only [V, hostOps0]
  host_read

set_option maxRecDepth 8192 in
set_option maxHeartbeats 4000000 in
/-- The right one is the transposed second end points. -/
theorem w26_term : (V m c main_v26 : S64x512.Idx → EReal)
    = transpose S64x512 [1, 0] (A2 m c) transposes_S512x64_S64x512_1_0 := by
  dsimp only [V, hostOps0]
  host_read

/-- The left half at `(k, u)` is the direction of segment `u` at coordinate `k`. -/
theorem w_left (k : Fin 64) (u : Fin 512) :
    (V m c main_v27 : S64x1024.Idx → EReal) (ix2 k (Fin.castLE (by decide) u)) = Spec.q12 (q1 m c) (q2 m c) u k := by
  rw [w_term, concatenate_pair_apply_left (t := S64x1024) (s₁ := S64x512) (s₂ := S64x512) 1 _ _
      concatenates_S64x512_S64x512_S64x1024_d1 _ rfl (ix2 k u)
      (fun b => match b with | ⟨0, _⟩ => rfl | ⟨1, _⟩ => rfl),
    w25_term, transpose_ix2_apply]
  rfl

/-- The right half at `(k, 512 + u)` is the second end point of segment `u` at coordinate `k`. -/
theorem w_right (k : Fin 64) (u : Fin 512) :
    (V m c main_v27 : S64x1024.Idx → EReal) (ix2 k (Fin.natAdd 512 u)) = q2 m c u k := by
  rw [w_term, concatenate_pair_apply_right (t := S64x1024) (s₁ := S64x512) (s₂ := S64x512) 1 _ _
      concatenates_S64x512_S64x512_S64x1024_d1 _ rfl rfl (ix2 k u)
      (fun b hb => match b, hb with
        | ⟨0, _⟩, _ => rfl
        | ⟨1, _⟩, hb => absurd rfl hb)
      (Nat.add_comm _ _),
    w26_term, transpose_ix2_apply]

/-! ## The 8 × 512 table -/

set_option maxRecDepth 8192 in
set_option maxHeartbeats 8000000 in
/-- It is the eight rows stacked. -/
theorem st_term : (V m c main_v24 : S8x512.Idx → EReal)
    = concatenate S8x512 0 [⟨S1x512, V m c main_v16⟩, ⟨S1x512, V m c main_v17⟩, ⟨S1x512, V m c main_v18⟩,
        ⟨S1x512, V m c main_v19⟩, ⟨S1x512, V m c main_v20⟩, ⟨S1x512, V m c main_v21⟩, ⟨S1x512, V m c main_v22⟩,
        ⟨S1x512, V m c main_v23⟩] concatenates_S1x512_S1x512_S1x512_S1x512_S1x512_S1x512_S1x512_S1x512_S8x512_d0 := by
  dsimp only [V, hostOps0]
  simp only [after_cons, after_nil]
  iterate 9 (rw [binary_result_ne]; rotate_left; decide)
  iterate 18 (rw [unary_result_ne]; rotate_left; decide)
  rw [nary8_result]
  iterate 8 (rw [nary_result_ne]; rotate_left; decide)
  rfl

set_option maxRecDepth 8192 in
set_option maxHeartbeats 4000000 in
/-- Row 0: the first end points' inner products with the directions. -/
theorem row0_term : (V m c main_v16 : S1x512.Idx → EReal)
    = broadcastInDim S1x512 ![1] bcast_S512_S1x512_1
        (Host.reduceAdd (F := Ideal) (mulf (A1 m c) (subf (A2 m c) (A1 m c))) (constant S_ .f32 0x00000000#32)
          reducesTo_S512x64_S512_d1 h_S_) := by
  dsimp only [V, hostOps0]
  host_read

set_option maxRecDepth 8192 in
set_option maxHeartbeats 4000000 in
/-- Row 1: the second end points' inner products with the directions. -/
theorem row1_term : (V m c main_v17 : S1x512.Idx → EReal)
    = broadcastInDim S1x512 ![1] bcast_S512_S1x512_1
        (Host.reduceAdd (F := Ideal) (mulf (A2 m c) (subf (A2 m c) (A1 m c))) (constant S_ .f32 0x00000000#32)
          reducesTo_S512x64_S512_d1 h_S_) := by
  dsimp only [V, hostOps0]
  host_read

set_option maxRecDepth 8192 in
set_option maxHeartbeats 4000000 in
/-- Row 2: the directions' squared lengths. -/
theorem row2_term : (V m c main_v18 : S1x512.Idx → EReal)
    = broadcastInDim S1x512 ![1] bcast_S512_S1x512_1
        (Host.reduceAdd (F := Ideal) (mulf (subf (A2 m c) (A1 m c)) (subf (A2 m c) (A1 m c))) (constant S_ .f32 0x00000000#32)
          reducesTo_S512x64_S512_d1 h_S_) := by
  dsimp only [V, hostOps0]
  host_read

set_option maxRecDepth 8192 in
set_option maxHeartbeats 4000000 in
/-- Row 3: the second end points' squared lengths. -/
theorem row3_term : (V m c main_v19 : S1x512.Idx → EReal)
    = broadcastInDim S1x512 ![1] bcast_S512_S1x512_1
        (Host.reduceAdd (F := Ideal) (mulf (A2 m c) (A2 m c)) (constant S_ .f32 0x00000000#32)
          reducesTo_S512x64_S512_d1 h_S_) := by
  dsimp only [V, hostOps0]
  host_read

set_option maxRecDepth 8192 in
set_option maxHeartbeats 4000000 in
/-- Row 4: the exponent's coefficient, minus one over sixty-four times the squared radius. -/
theorem row4_term : (V m c main_v20 : S1x512.Idx → EReal)
    = broadcastInDim S1x512 ![1] bcast_S512_S1x512_1
        (Host.divf (F := Ideal) (broadcastInDim S512 ![] bcast_S_S512 (constant S_ .f32 0xBF800000#32))
          (mulf (broadcastInDim S512 ![] bcast_S_S512 (constant S_ .f32 0x42800000#32)) (mulf (A3 m c) (A3 m c)))) := by
  dsimp only [V, hostOps0]
  host_read

set_option maxRecDepth 8192 in
set_option maxHeartbeats 4000000 in
/-- Row 5: the directions' lengths. -/
theorem row5_term : (V m c main_v21 : S1x512.Idx → EReal)
    = broadcastInDim S1x512 ![1] bcast_S512_S1x512_1
        (Host.sqrt (F := Ideal) (Host.reduceAdd (F := Ideal) (mulf (subf (A2 m c) (A1 m c)) (subf (A2 m c) (A1 m c)))
          (constant S_ .f32 0x00000000#32) reducesTo_S512x64_S512_d1 h_S_)) := by
  dsimp only [V, hostOps0]
  host_read

/-- The eight row buffers. -/
abbrev rowsV : Fin 8 → (S1x512.Idx → EReal) :=
  ![V m c main_v16, V m c main_v17, V m c main_v18, V m c main_v19, V m c main_v20, V m c main_v21, V m c main_v22,
    V m c main_v23]

/-- Row `k` of the table is the `k`-th row buffer. -/
theorem st_row (k : Fin 8) (u : Fin 512) :
    (V m c main_v24 : S8x512.Idx → EReal) (ix2 k u) = rowsV m c k (ix2 (0 : Fin 1) u) := by
  rw [st_term]
  exact stack_at (rowsV m c) _ k u

theorem st0 (u : Fin 512) :
    (V m c main_v24 : S8x512.Idx → EReal) (ix2 (0 : Fin 8) u) = Spec.q1q12 (q1 m c) (q2 m c) u := by
  rw [st_row]
  show (V m c main_v16 : S1x512.Idx → EReal) (ix2 (0 : Fin 1) u) = _
  rw [row0_term, row_at, sum_at]
  rfl

theorem st1 (u : Fin 512) :
    (V m c main_v24 : S8x512.Idx → EReal) (ix2 (1 : Fin 8) u) = Spec.q2q12 (q1 m c) (q2 m c) u := by
  rw [st_row]
  show (V m c main_v17 : S1x512.Idx → EReal) (ix2 (0 : Fin 1) u) = _
  rw [row1_term, row_at, sum_at]
  rfl

theorem st2 (u : Fin 512) :
    (V m c main_v24 : S8x512.Idx → EReal) (ix2 (2 : Fin 8) u) = Spec.qn2 (q1 m c) (q2 m c) u := by
  rw [st_row]
  show (V m c main_v18 : S1x512.Idx → EReal) (ix2 (0 : Fin 1) u) = _
  rw [row2_term, row_at, sum_at]
  rfl

theorem st3 (u : Fin 512) :
    (V m c main_v24 : S8x512.Idx → EReal) (ix2 (3 : Fin 8) u) = Spec.q2q2 (q2 m c) u := by
  rw [st_row]
  show (V m c main_v19 : S1x512.Idx → EReal) (ix2 (0 : Fin 1) u) = _
  rw [row3_term, row_at, sum_at]
  rfl

theorem st4 (u : Fin 512) :
    (V m c main_v24 : S8x512.Idx → EReal) (ix2 (4 : Fin 8) u) = Spec.coef (r m c) u := by
  rw [st_row]
  show (V m c main_v20 : S1x512.Idx → EReal) (ix2 (0 : Fin 1) u) = _
  rw [row4_term, row_at]
  show Ideal.div (broadcastInDim S512 ![] bcast_S_S512 (constant (F := Ideal) S_ .f32 0xBF800000#32) (ix1 u))
      (broadcastInDim S512 ![] bcast_S_S512 (constant (F := Ideal) S_ .f32 0x42800000#32) (ix1 u)
        * (A3 m c (ix1 u) * A3 m c (ix1 u))) = _
  rw [splat_at, splat_at]
  show Ideal.div (Ideal.ofBits .f32 0xBF800000#32) (Ideal.ofBits .f32 0x42800000#32 * _) = _
  rw [Spec.ofBits_neg_one, Spec.ofBits_64]
  rfl

theorem st5 (u : Fin 512) :
    (V m c main_v24 : S8x512.Idx → EReal) (ix2 (5 : Fin 8) u) = Spec.qn (q1 m c) (q2 m c) u := by
  rw [st_row]
  show (V m c main_v21 : S1x512.Idx → EReal) (ix2 (0 : Fin 1) u) = _
  rw [row5_term, row_at]
  show Ideal.sqrt (Host.reduceAdd (F := Ideal) _ _ reducesTo_S512x64_S512_d1 h_S_ (ix1 u)) = _
  rw [sum_at]
  rfl

end

/-! ## The statements, over the buffers after the host operations spelled out -/

/-- THE 64 × 1024 OPERAND, left half: at `(k, u)`, `u` below 512, the direction of segment `u` at coordinate `k`. -/
theorem w_left_at (m : (ℓ : Loc nD τ sig) → Buf (Elt Ideal) ℓ) (c : Dev nD) (k : Fin 64) (u : Fin 512) :
    (StableHlo.after hostOps0 (fun b => m (c, b)) main_v27 : S64x1024.Idx → EReal) (ix2 k (Fin.castLE (by decide) u))
      = Cert.Spec.q12 (fun u n => m ((c : Thread nD τ).loc main_arg1) (ix2 u n))
          (fun u n => m ((c : Thread nD τ).loc main_arg2) (ix2 u n)) u k :=
  w_left m c k u

/-- THE 64 × 1024 OPERAND, right half: at `(k, 512 + u)` the second end point of segment `u` at coordinate `k`. -/
theorem w_right_at (m : (ℓ : Loc nD τ sig) → Buf (Elt Ideal) ℓ) (c : Dev nD) (k : Fin 64) (u : Fin 512) :
    (StableHlo.after hostOps0 (fun b => m (c, b)) main_v27 : S64x1024.Idx → EReal) (ix2 k (Fin.natAdd 512 u))
      = m ((c : Thread nD τ).loc main_arg2) (ix2 u k) :=
  w_right m c k u

/-- THE 8 × 512 TABLE, row 0: `q1 · q12`. -/
theorem st0_at (m : (ℓ : Loc nD τ sig) → Buf (Elt Ideal) ℓ) (c : Dev nD) (u : Fin 512) :
    (StableHlo.after hostOps0 (fun b => m (c, b)) main_v24 : S8x512.Idx → EReal) (ix2 (0 : Fin 8) u)
      = Cert.Spec.q1q12 (fun u n => m ((c : Thread nD τ).loc main_arg1) (ix2 u n))
          (fun u n => m ((c : Thread nD τ).loc main_arg2) (ix2 u n)) u :=
  st0 m c u

/-- Row 1: `q2 · q12`. -/
theorem st1_at (m : (ℓ : Loc nD τ sig) → Buf (Elt Ideal) ℓ) (c : Dev nD) (u : Fin 512) :
    (StableHlo.after hostOps0 (fun b => m (c, b)) main_v24 : S8x512.Idx → EReal) (ix2 (1 : Fin 8) u)
      = Cert.Spec.q2q12 (fun u n => m ((c : Thread nD τ).loc main_arg1) (ix2 u n))
          (fun u n => m ((c : Thread nD τ).loc main_arg2) (ix2 u n)) u :=
  st1 m c u

/-- Row 2: `|q12|²`. -/
theorem st2_at (m : (ℓ : Loc nD τ sig) → Buf (Elt Ideal) ℓ) (c : Dev nD) (u : Fin 512) :
    (StableHlo.after hostOps0 (fun b => m (c, b)) main_v24 : S8x512.Idx → EReal) (ix2 (2 : Fin 8) u)
      = Cert.Spec.qn2 (fun u n => m ((c : Thread nD τ).loc main_arg1) (ix2 u n))
          (fun u n => m ((c : Thread nD τ).loc main_arg2) (ix2 u n)) u :=
  st2 m c u

/-- Row 3: `|q2|²`. -/
theorem st3_at (m : (ℓ : Loc nD τ sig) → Buf (Elt Ideal) ℓ) (c : Dev nD) (u : Fin 512) :
    (StableHlo.after hostOps0 (fun b => m (c, b)) main_v24 : S8x512.Idx → EReal) (ix2 (3 : Fin 8) u)
      = Cert.Spec.q2q2 (fun u n => m ((c : Thread nD τ).loc main_arg2) (ix2 u n)) u :=
  st3 m c u

/-- Row 4: the exponent's coefficient `-1 / (64 · r²)`. -/
theorem st4_at (m : (ℓ : Loc nD τ sig) → Buf (Elt Ideal) ℓ) (c : Dev nD) (u : Fin 512) :
    (StableHlo.after hostOps0 (fun b => m (c, b)) main_v24 : S8x512.Idx → EReal) (ix2 (4 : Fin 8) u)
      = Cert.Spec.coef (fun u => m ((c : Thread nD τ).loc main_arg3) (ix1 u)) u :=
  st4 m c u

/-- Row 5: `|q12|`. -/
theorem st5_at (m : (ℓ : Loc nD τ sig) → Buf (Elt Ideal) ℓ) (c : Dev nD) (u : Fin 512) :
    (StableHlo.after hostOps0 (fun b => m (c, b)) main_v24 : S8x512.Idx → EReal) (ix2 (5 : Fin 8) u)
      = Cert.Spec.qn (fun u n => m ((c : Thread nD τ).loc main_arg1) (ix2 u n))
          (fun u n => m ((c : Thread nD τ).loc main_arg2) (ix2 u n)) u :=
  st5 m c u

end Cert.KernelIdeal.Operands

end
-- ==== Proof.RefRead.lean ====
/-
  The reference program's result, entry by entry: each of its stages, read at an index written by coordinates, is the
  corresponding intermediate of the specification (the segment's direction and length, the scalar projection, the
  projection vector, its inner product with the direction and its length, the weight, the centre, the squared
  distance), and the last stage is `Spec.outR`.
-/
import proofs.«112784_j62148176773493_2_alg».proof.Proof.Gen.ReferenceIdeal.Read
import proofs.«112784_j62148176773493_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The points as a function of the two coordinates. -/
abbrev xs (a0 : FVec Ideal S2048x64 .f32) : Fin 2048 → Fin 64 → EReal := fun b n => a0 (ix2 b n)
/-- A segment end as a function of the two coordinates. -/
abbrev qs (a : FVec Ideal S512x64 .f32) : Fin 512 → Fin 64 → EReal := fun u n => a (ix2 u n)
/-- The radii as a function of the coordinate. -/
abbrev rs (a3 : FVec Ideal S512 .f32) : Fin 512 → EReal := fun u => a3 (ix1 u)

section
variable (a0 : FVec Ideal S2048x64 .f32) (a1 a2 : FVec Ideal S512x64 .f32) (a3 : FVec Ideal S512 .f32)

/-- The direction `q2 - q1` at `(u, n)`. -/
theorem v0_at (u : Fin 512) (n : Fin 64) :
    val_main_v0 (F := Ideal) a1 a2 (ix2 u n) = Spec.q12 (qs a1) (qs a2) u n := rfl

/-- The direction's length at `u`: the square root of the sum of its squared coordinates. -/
theorem v1_at (u : Fin 512) : val_main_v1 (F := Ideal) a1 a2 (ix1 u) = Spec.qn (qs a1) (qs a2) u := by
  rw [val_main_v1_apply, val_main_call0_v1_apply, val_main_call0_cst_apply]
  unfold Spec.qn Spec.qn2
  rw [Ideal.hostUnary_sqrt_def, Ideal.ofBits_def, Spec.ofBits_zero, zero_add]
  refine congrArg Ideal.sqrt (Finset.sum_congr rfl fun k _ => ?_)
  rw [show idx_main_call0_v1 (ix1 u) k = ix2 u k from
    funext fun a => Fin.ext (by match a with | ⟨0, _⟩ => rfl | ⟨1, _⟩ => rfl)]
  rfl

/-- `q1 · q12` at `u`. -/
theorem v4_at (u : Fin 512) : val_main_v4 (F := Ideal) a1 a2 (ix1 u) = Spec.q1q12 (qs a1) (qs a2) u := by
  rw [val_main_v4_apply, val_main_cst_apply]
  unfold Spec.q1q12
  rw [Ideal.ofBits_def, Spec.ofBits_zero, zero_add]
  refine Finset.sum_congr rfl fun k _ => ?_
  rw [show idx_main_v4 (ix1 u) k = ix2 u k from
    funext fun a => Fin.ext (by match a with | ⟨0, _⟩ => rfl | ⟨1, _⟩ => rfl)]
  rfl

/-- `x · q12` at `(b, u)`: the contraction over the 64 coordinates. -/
theorem v2_at (b : Fin 2048) (u : Fin 512) :
    val_main_v2 (F := Ideal) a0 a1 a2 (ix2 b u) = Spec.xq12 (xs a0) (qs a1) (qs a2) b u := by
  rw [val_main_v2_apply]
  unfold Spec.xq12
  refine Finset.sum_congr rfl fun k _ => ?_
  rw [show lidx_main_v2 (ix2 b u) k = ix2 b k from
      funext fun a => Fin.ext (by match a with | ⟨0, _⟩ => rfl | ⟨1, _⟩ => rfl),
    show ridx_main_v2 (ix2 b u) k = ix2 u k from
      funext fun a => Fin.ext (by match a with | ⟨0, _⟩ => rfl | ⟨1, _⟩ => rfl)]
  rfl

/-- The scalar projection `(x - q1) · q12` at `(b, u)`. -/
theorem v7_at (b : Fin 2048) (u : Fin 512) :
    val_main_v7 (F := Ideal) a0 a1 a2 (ix2 b u) = Spec.s (xs a0) (qs a1) (qs a2) b u := by
  rw [val_main_v7_apply, val_main_v6_apply, val_main_v5_apply,
    show idx_main_v5 (idx_main_v6 (ix2 b u)) = ix1 u from
      funext fun a => Fin.ext (by match a with | ⟨0, _⟩ => rfl),
    v2_at, v4_at]
  rfl

/-- The direction's length, repeated along the points, at `(b, u)`. -/
theorem v9_at (b : Fin 2048) (u : Fin 512) :
    val_main_v9 (F := Ideal) a1 a2 (ix2 b u) = Spec.qn (qs a1) (qs a2) u := by
  rw [val_main_v9_apply, val_main_v8_apply,
    show idx_main_v8 (idx_main_v9 (ix2 b u)) = ix1 u from
      funext fun a => Fin.ext (by match a with | ⟨0, _⟩ => rfl),
    v1_at]

/-- The same array, as the program forms it a second time. -/
theorem v22_at (b : Fin 2048) (u : Fin 512) :
    val_main_v22 (F := Ideal) a1 a2 (ix2 b u) = Spec.qn (qs a1) (qs a2) u := by
  rw [val_main_v22_apply, val_main_v21_apply,
    show idx_main_v21 (idx_main_v22 (ix2 b u)) = ix1 u from
      funext fun a => Fin.ext (by match a with | ⟨0, _⟩ => rfl),
    v1_at]

/-- The projection coefficient `s / |q12|` at `(b, u)`. -/
theorem v10_at (b : Fin 2048) (u : Fin 512) :
    val_main_v10 (F := Ideal) a0 a1 a2 (ix2 b u)
      = Ideal.div (Spec.s (xs a0) (qs a1) (qs a2) b u) (Spec.qn (qs a1) (qs a2) u) := by
  rw [val_main_v10_apply, v7_at, v9_at]
  rfl

/-- The direction, repeated along the points, at `(b, u, n)`. -/
theorem v14_at (b : Fin 2048) (u : Fin 512) (n : Fin 64) :
    val_main_v14 (F := Ideal) a1 a2 (ix3 b u n) = Spec.q12 (qs a1) (qs a2) u n := by
  rw [val_main_v14_apply, val_main_v12_apply,
    show idx_main_v12 (idx_main_v14 (ix3 b u n)) = ix2 u n from
      funext fun a => Fin.ext (by match a with | ⟨0, _⟩ => rfl | ⟨1, _⟩ => rfl),
    v0_at]

/-- The same array, as the program forms it a second time. -/
theorem v17_at (b : Fin 2048) (u : Fin 512) (n : Fin 64) :
    val_main_v17 (F := Ideal) a1 a2 (ix3 b u n) = Spec.q12 (qs a1) (qs a2) u n := by
  rw [val_main_v17_apply, val_main_v16_apply,
    show idx_main_v16 (idx_main_v17 (ix3 b u n)) = ix2 u n from
      funext fun a => Fin.ext (by match a with | ⟨0, _⟩ => rfl | ⟨1, _⟩ => rfl),
    v0_at]

/-- The projection vector `(s / |q12|) · q12` at `(b, u, n)`. -/
theorem v15_at (b : Fin 2048) (u : Fin 512) (n : Fin 64) :
    val_main_v15 (F := Ideal) a0 a1 a2 (ix3 b u n) = Spec.kv (xs a0) (qs a1) (qs a2) b u n := by
  rw [val_main_v15_apply, val_main_v13_apply, val_main_v11_apply,
    show idx_main_v11 (idx_main_v13 (ix3 b u n)) = ix2 b u from
      funext fun a => Fin.ext (by match a with | ⟨0, _⟩ => rfl | ⟨1, _⟩ => rfl),
    v10_at, v14_at]
  rfl

/-- The projection vector's inner product with the direction at `(b, u)`. -/
theorem v19_at (b : Fin 2048) (u : Fin 512) :
    val_main_v19 (F := Ideal) a0 a1 a2 (ix2 b u) = Spec.temp1 (xs a0) (qs a1) (qs a2) b u := by
  rw [val_main_v19_apply, val_main_cst_0_apply]
  unfold Spec.temp1
  rw [Ideal.ofBits_def, Spec.ofBits_zero, zero_add]
  refine Finset.sum_congr rfl fun k _ => ?_
  rw [show idx_main_v19 (ix2 b u) k = ix3 b u k from
      funext fun a => Fin.ext (by match a with | ⟨0, _⟩ => rfl | ⟨1, _⟩ => rfl | ⟨2, _⟩ => rfl),
    val_main_v18_apply, v15_at, v17_at]
  rfl

/-- The projection vector's length at `(b, u)`. -/
theorem v20_at (b : Fin 2048) (u : Fin 512) :
    val_main_v20 (F := Ideal) a0 a1 a2 (ix2 b u) = Spec.knorm (xs a0) (qs a1) (qs a2) b u := by
  rw [val_main_v20_apply, val_main_call1_v1_apply, val_main_call1_cst_apply]
  unfold Spec.knorm
  rw [Ideal.hostUnary_sqrt_def, Ideal.ofBits_def, Spec.ofBits_zero, zero_add]
  refine congrArg Ideal.sqrt (Finset.sum_congr rfl fun k _ => ?_)
  rw [show idx_main_call1_v1 (ix2 b u) k = ix3 b u k from
      funext fun a => Fin.ext (by match a with | ⟨0, _⟩ => rfl | ⟨1, _⟩ => rfl | ⟨2, _⟩ => rfl),
    val_main_call1_v0_apply, v15_at]
  rfl

/-- The ratio of the two lengths at `(b, u)`. -/
theorem v23_at (b : Fin 2048) (u : Fin 512) :
    val_main_v23 (F := Ideal) a0 a1 a2 (ix2 b u) = Spec.temp2 (xs a0) (qs a1) (qs a2) b u := by
  rw [val_main_v23_apply, v20_at, v22_at]
  rfl

/-- A select on a strict comparison of extended reals is the `if` on that comparison. -/
theorem select_olt {α : Type} (x y : EReal) (p q : α) :
    Scalar.select (Ideal.cmp .olt x y) p q = if x < y then p else q := by
  unfold Scalar.select Ideal.cmp
  by_cases h : x < y <;> simp [h]

/-- The weight at `(b, u)`: `1` where the inner product is negative, else the projection's length where the ratio
    is below one, else `0`. -/
theorem v29_at (b : Fin 2048) (u : Fin 512) :
    val_main_v29 (F := Ideal) a0 a1 a2 (ix2 b u) = Spec.lR (xs a0) (qs a1) (qs a2) b u := by
  rw [val_main_v29_apply, val_main_v28_apply, val_main_v25_apply, val_main_v27_apply, val_main_v24_apply,
    val_main_v26_apply, val_main_call3_v1_apply, val_main_call2_v1_apply, val_main_call3_v0_apply,
    val_main_call2_v0_apply, val_main_cst_1_apply, val_main_cst_2_apply, val_main_cst_3_apply, val_main_cst_4_apply,
    v19_at, v20_at, v23_at]
  unfold Spec.lR
  rw [Ideal.cmpf_def, Ideal.cmpf_def, Ideal.ofBits_def, Ideal.ofBits_def, Spec.ofBits_zero, Spec.ofBits_one,
    select_olt, select_olt]

/-- The centre `l · q1 + (1 - l) · q2` at `(b, u, n)`. -/
theorem v42_at (b : Fin 2048) (u : Fin 512) (n : Fin 64) :
    val_main_v42 (F := Ideal) a0 a1 a2 (ix3 b u n)
      = Spec.lR (xs a0) (qs a1) (qs a2) b u * qs a1 u n + (1 - Spec.lR (xs a0) (qs a1) (qs a2) b u) * qs a2 u n := by
  rw [val_main_v42_apply, val_main_v34_apply, val_main_v41_apply, val_main_v32_apply, val_main_v30_apply,
    val_main_v33_apply, val_main_v31_apply, val_main_v39_apply, val_main_v37_apply, val_main_v40_apply,
    val_main_v38_apply, val_main_v36_apply, val_main_v35_apply, val_main_cst_5_apply,
    show idx_main_v30 (idx_main_v32 (ix3 b u n)) = ix2 b u from
      funext fun a => Fin.ext (by match a with | ⟨0, _⟩ => rfl | ⟨1, _⟩ => rfl),
    show idx_main_v37 (idx_main_v39 (ix3 b u n)) = ix2 b u from
      funext fun a => Fin.ext (by match a with | ⟨0, _⟩ => rfl | ⟨1, _⟩ => rfl),
    show idx_main_v31 (idx_main_v33 (ix3 b u n)) = ix2 u n from
      funext fun a => Fin.ext (by match a with | ⟨0, _⟩ => rfl | ⟨1, _⟩ => rfl),
    show idx_main_v38 (idx_main_v40 (ix3 b u n)) = ix2 u n from
      funext fun a => Fin.ext (by match a with | ⟨0, _⟩ => rfl | ⟨1, _⟩ => rfl),
    v29_at, Ideal.ofBits_def, Spec.ofBits_one]
  rfl

/-- The point minus the centre at `(b, u, n)`. -/
theorem v45_at (b : Fin 2048) (u : Fin 512) (n : Fin 64) :
    val_main_v45 (F := Ideal) a0 a1 a2 (ix3 b u n) = Spec.dR (xs a0) (qs a1) (qs a2) b u n := by
  rw [val_main_v45_apply, val_main_v44_apply, val_main_v43_apply,
    show idx_main_v43 (idx_main_v44 (ix3 b u n)) = ix2 b n from
      funext fun a => Fin.ext (by match a with | ⟨0, _⟩ => rfl | ⟨1, _⟩ => rfl),
    v42_at]
  rfl

/-- The squared distance from the point to the centre at `(b, u)`. -/
theorem v47_at (b : Fin 2048) (u : Fin 512) :
    val_main_v47 (F := Ideal) a0 a1 a2 (ix2 b u)
      = ∑ n, Spec.dR (xs a0) (qs a1) (qs a2) b u n * Spec.dR (xs a0) (qs a1) (qs a2) b u n := by
  rw [val_main_v47_apply, val_main_cst_6_apply, Ideal.ofBits_def, Spec.ofBits_zero, zero_add]
  refine Finset.sum_congr rfl fun k _ => ?_
  rw [show idx_main_v47 (ix2 b u) k = ix3 b u k from
      funext fun a => Fin.ext (by match a with | ⟨0, _⟩ => rfl | ⟨1, _⟩ => rfl | ⟨2, _⟩ => rfl),
    val_main_v46_apply, v45_at]
  rfl

/-- The exponent's divisor `64 · r²`, repeated along the points, at `(b, u)`. -/
theorem v53_at (b : Fin 2048) (u : Fin 512) :
    val_main_v53 (F := Ideal) a3 (ix2 b u) = Spec.den (rs a3) u := by
  rw [val_main_v53_apply, val_main_v52_apply,
    show idx_main_v52 (idx_main_v53 (ix2 b u)) = ix1 u from
      funext fun a => Fin.ext (by match a with | ⟨0, _⟩ => rfl),
    val_main_v51_apply, val_main_v50_apply, val_main_v49_apply, val_main_cst_7_apply, Ideal.ofBits_def, Spec.ofBits_64]
  rfl

/-- THE REFERENCE'S RESULT at `(b, u)` is the specification's `outR` of the four arrays read by coordinates. -/
theorem result_at (a0 : FVec Ideal S2048x64 .f32) (a1 a2 : FVec Ideal S512x64 .f32) (a3 : FVec Ideal S512 .f32)
    (b : Fin 2048) (u : Fin 512) :
    val_main_v55 (F := Ideal) a0 a1 a2 a3 (ix2 b u)
      = Cert.Spec.outR (fun b n => a0 (ix2 b n)) (fun u n => a1 (ix2 u n)) (fun u n => a2 (ix2 u n))
          (fun u => a3 (ix1 u)) b u := by
  rw [val_main_v55_apply, val_main_v54_apply, val_main_v48_apply, v47_at, v53_at]
  rfl

/-- The same as a statement about the whole array. -/
theorem result_eq (a0 : FVec Ideal S2048x64 .f32) (a1 a2 : FVec Ideal S512x64 .f32) (a3 : FVec Ideal S512 .f32) :
    val_main_v55 (F := Ideal) a0 a1 a2 a3
      = fun i => Cert.Spec.outR (fun b n => a0 (ix2 b n)) (fun u n => a1 (ix2 u n)) (fun u n => a2 (ix2 u n))
          (fun u => a3 (ix1 u)) (i 0) (i 1) := by
  funext i
  rw [eq_ix2 i]
  exact result_at a0 a1 a2 a3 (i 0) (i 1)

end

/-- The run's result term, at `(b, u)`, in terms of the launch contents of the four argument arrays. -/
theorem res_at (m : (ℓ : Loc nD τ sig) → Buf (Elt Ideal) ℓ) (c : Dev nD) (b : Fin 2048) (u : Fin 512) :
    Cert.ReferenceIdeal.Value.res_main_v55 m c (ix2 b u)
      = Cert.Spec.outR (fun b n => m ((c.tc : Thread nD τ).loc main_arg0) (ix2 b n))
          (fun u n => m ((c.tc : Thread nD τ).loc main_arg1) (ix2 u n))
          (fun u n => m ((c.tc : Thread nD τ).loc main_arg2) (ix2 u n))
          (fun u => m ((c.tc : Thread nD τ).loc main_arg3) (ix1 u)) b u :=
  (congrFun (val_main_v55_eq (F := Ideal) m c) (ix2 b u)).trans (result_at _ _ _ _ b u)

/-- The same as a statement about the whole result array. -/
theorem res_eq (m : (ℓ : Loc nD τ sig) → Buf (Elt Ideal) ℓ) (c : Dev nD) :
    Cert.ReferenceIdeal.Value.res_main_v55 m c
      = fun i : S2048x512.Idx => Cert.Spec.outR (fun b n => m ((c.tc : Thread nD τ).loc main_arg0) (ix2 b n))
          (fun u n => m ((c.tc : Thread nD τ).loc main_arg1) (ix2 u n))
          (fun u n => m ((c.tc : Thread nD τ).loc main_arg2) (ix2 u n))
          (fun u => m ((c.tc : Thread nD τ).loc main_arg3) (ix1 u)) (i 0) (i 1) :=
  (val_main_v55_eq (F := Ideal) m c).trans (result_eq _ _ _ _)

end Cert.ReferenceIdeal.RefValue

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.Algebra.lean ====
/-
  The two entries of Proof/Spec.lean agree on finite inputs whose radii are all nonzero.

  Fix a point x (row b) and a segment from q1 to q2 (row u).  Over the reals write d = q2 - q1 (the direction),
  Q = |d|² and N = √Q (its squared length and length), and S = x·d - q1·d.  Every quantity the two sides form from
  finite inputs is again finite, with ONE exception: the reference divides by N, which is zero for a degenerate
  segment.  So each quantity is first shown to be the coercion of an explicit real number; the reference's weight
  needs the case split Q = 0 / Q > 0.

  * Q > 0.  The reference's projection vector is (S/N)·d, so its inner product with d is (S/N)·Q = S·N (negative
    exactly when S is) and its norm is √((S/N)²·Q) = √(S²) = |S|; the ratio |S|/N is below 1 exactly when |S| < N.
  * Q = 0.  Then d = 0 and S = 0.  The quotient S/N is the junk value of 0/0, but it is multiplied by d = 0, so the
    projection vector vanishes; its norm is 0, the ratio 0/0 is the least element (below 1), and the weight is the
    norm, 0.  The kernel's weight is 0 too, because |S| = 0 is not below N = 0.

  In both cases both sides use the same real weight l ∈ {1, |S|, 0}.  What is left is the expansion
      |x - (l·q1 + (1-l)·q2)|² = |(x - q2) + l·d|² = (|x|² - 2 x·q2 + |q2|²) + 2l (x·d - q2·d) + l²·Q
  and the remark that dividing by the nonzero real 64·r² is multiplying by its reciprocal.
-/
import proofs.«112784_j62148176773493_2_alg».proof.Proof.Spec
import proofs.«112784_j62148176773493_2_alg».proof.Proof.LibRankFactor
import Mathlib.Tactic

noncomputable section

namespace Cert.Algebra

open Idealize.ShloMosaic

/-! ## Generalities on coerced reals -/

/-- A sum of products of coerced reals is the coercion of the real sum of products. -/
theorem sum_mul_coe (f g : Fin 64 → ℝ) :
    ∑ n, (f n : EReal) * (g n : EReal) = ((∑ n, f n * g n : ℝ) : EReal) := by
  rw [RankFactor.coe_sum]
  exact Finset.sum_congr rfl fun n _ => (EReal.coe_mul _ _).symm

/-- The quotient of two coerced reals, the divisor nonzero, is the coerced real quotient. -/
theorem div_coe_coe (a c : ℝ) (hc : c ≠ 0) : Ideal.div (a : EReal) (c : EReal) = ((a / c : ℝ) : EReal) := by
  rw [Ideal.div_coe hc, ← EReal.coe_mul, mul_one_div]

theorem coe_lt_one_iff (a : ℝ) : (a : EReal) < 1 ↔ a < 1 := by
  rw [← EReal.coe_one, EReal.coe_lt_coe_iff]

/-- The coercion passes through the three-way choice of the weight. -/
theorem coe_choice (p q : Prop) [Decidable p] [Decidable q] (a : ℝ) :
    (if p then (1 : EReal) else if q then (a : EReal) else 0)
      = ((if p then (1 : ℝ) else if q then a else 0 : ℝ) : EReal) := by
  split_ifs <;> rfl

/-- The absolute value written as a maximum, on coerced reals. -/
theorem max_neg_coe (a : ℝ) : max (a : EReal) (-(a : EReal)) = ((|a| : ℝ) : EReal) := by
  rw [abs_eq_max_neg, EReal.coe_strictMono.monotone.map_max, EReal.coe_neg]

/-- The square root of the extended real 0 is 0. -/
theorem sqrt_zero : Ideal.sqrt 0 = 0 := by
  show Ideal.sqrt ((0 : ℝ) : EReal) = 0
  rw [Ideal.sqrt_coe, if_neg (lt_irrefl 0), Real.sqrt_zero]
  rfl

/-- The expansion of the squared distance to the weighted centre, over the reals. -/
theorem real_expand (xv a c : Fin 64 → ℝ) (l : ℝ) :
    ∑ n, (xv n - (l * a n + (1 - l) * c n)) * (xv n - (l * a n + (1 - l) * c n))
      = ((∑ n, xv n * xv n - 2 * ∑ n, xv n * c n) + ∑ n, c n * c n)
        + (2 * l) * (∑ n, xv n * (c n - a n) - ∑ n, c n * (c n - a n))
        + (l * l) * ∑ n, (c n - a n) * (c n - a n) := by
  simp only [Finset.mul_sum, ← Finset.sum_sub_distrib, ← Finset.sum_add_distrib]
  exact Finset.sum_congr rfl fun n _ => by ring

/-! ## The real quantities -/

section
variable (x : Fin 2048 → Fin 64 → ℝ) (q1 q2 : Fin 512 → Fin 64 → ℝ) (r : Fin 512 → ℝ)

/-- The direction d of segment u. -/
def dir (u : Fin 512) (n : Fin 64) : ℝ := q2 u n - q1 u n
/-- Its squared length Q. -/
def len2 (u : Fin 512) : ℝ := ∑ n, dir q1 q2 u n * dir q1 q2 u n
/-- Its length N. -/
def len (u : Fin 512) : ℝ := Real.sqrt (len2 q1 q2 u)
/-- S = x·d - q1·d. -/
def proj (b : Fin 2048) (u : Fin 512) : ℝ := ∑ n, x b n * dir q1 q2 u n - ∑ n, q1 u n * dir q1 q2 u n
/-- The common weight l. -/
def wt (b : Fin 2048) (u : Fin 512) : ℝ :=
  if proj x q1 q2 b u < 0 then 1 else if |proj x q1 q2 b u| < len q1 q2 u then |proj x q1 q2 b u| else 0

theorem len2_nonneg (u : Fin 512) : 0 ≤ len2 q1 q2 u :=
  Finset.sum_nonneg fun n _ => mul_self_nonneg _

theorem len_mul_self (u : Fin 512) : len q1 q2 u * len q1 q2 u = len2 q1 q2 u :=
  Real.mul_self_sqrt (len2_nonneg q1 q2 u)

theorem len_pos (u : Fin 512) (h : len2 q1 q2 u ≠ 0) : 0 < len q1 q2 u :=
  Real.sqrt_pos.mpr (lt_of_le_of_ne (len2_nonneg q1 q2 u) (Ne.symm h))

/-- A degenerate segment has the zero direction. -/
theorem dir_eq_zero (u : Fin 512) (h : len2 q1 q2 u = 0) (n : Fin 64) : dir q1 q2 u n = 0 := by
  have h0 := (Finset.sum_eq_zero_iff_of_nonneg (fun n _ => mul_self_nonneg (dir q1 q2 u n))).mp h n (Finset.mem_univ n)
  exact mul_self_eq_zero.mp h0

/-! ## The shared quantities are coerced reals -/

local notation "X" => (fun (b : Fin 2048) (n : Fin 64) => ((x b n : ℝ) : EReal))
local notation "Q1" => (fun (u : Fin 512) (n : Fin 64) => ((q1 u n : ℝ) : EReal))
local notation "Q2" => (fun (u : Fin 512) (n : Fin 64) => ((q2 u n : ℝ) : EReal))
local notation "R" => (fun (u : Fin 512) => ((r u : ℝ) : EReal))

theorem q12_coe (u : Fin 512) (n : Fin 64) : Spec.q12 Q1 Q2 u n = (dir q1 q2 u n : EReal) := by
  simp only [Spec.q12, dir, EReal.coe_sub]

theorem qn2_coe (u : Fin 512) : Spec.qn2 Q1 Q2 u = (len2 q1 q2 u : EReal) := by
  simp only [Spec.qn2, q12_coe, len2]
  exact sum_mul_coe (dir q1 q2 u) (dir q1 q2 u)

theorem qn_coe (u : Fin 512) : Spec.qn Q1 Q2 u = (len q1 q2 u : EReal) := by
  rw [Spec.qn, qn2_coe, Ideal.sqrt_coe, if_neg (not_lt.mpr (len2_nonneg q1 q2 u))]
  rfl

theorem xq12_coe (b : Fin 2048) (u : Fin 512) :
    Spec.xq12 X Q1 Q2 b u = ((∑ n, x b n * dir q1 q2 u n : ℝ) : EReal) := by
  simp only [Spec.xq12, q12_coe]
  exact sum_mul_coe (x b) (dir q1 q2 u)

theorem q1q12_coe (u : Fin 512) : Spec.q1q12 Q1 Q2 u = ((∑ n, q1 u n * dir q1 q2 u n : ℝ) : EReal) := by
  simp only [Spec.q1q12, q12_coe]
  exact sum_mul_coe (q1 u) (dir q1 q2 u)

theorem q2q12_coe (u : Fin 512) : Spec.q2q12 Q1 Q2 u = ((∑ n, q2 u n * dir q1 q2 u n : ℝ) : EReal) := by
  simp only [Spec.q2q12, q12_coe]
  exact sum_mul_coe (q2 u) (dir q1 q2 u)

theorem q2q2_coe (u : Fin 512) : Spec.q2q2 Q2 u = ((∑ n, q2 u n * q2 u n : ℝ) : EReal) := by
  simp only [Spec.q2q2]
  exact sum_mul_coe (q2 u) (q2 u)

theorem xq2_coe (b : Fin 2048) (u : Fin 512) : Spec.xq2 X Q2 b u = ((∑ n, x b n * q2 u n : ℝ) : EReal) := by
  simp only [Spec.xq2]
  exact sum_mul_coe (x b) (q2 u)

theorem xx_coe (b : Fin 2048) : Spec.xx X b = ((∑ n, x b n * x b n : ℝ) : EReal) := by
  simp only [Spec.xx]
  exact sum_mul_coe (x b) (x b)

theorem s_coe (b : Fin 2048) (u : Fin 512) : Spec.s X Q1 Q2 b u = (proj x q1 q2 b u : EReal) := by
  simp only [Spec.s, xq12_coe, q1q12_coe, proj, EReal.coe_sub]

theorem den_coe (u : Fin 512) : Spec.den R u = ((64 * (r u * r u) : ℝ) : EReal) := by
  simp only [Spec.den, EReal.coe_mul]

/-! ## The kernel's weight -/

theorem absS_coe (b : Fin 2048) (u : Fin 512) : Spec.absS X Q1 Q2 b u = ((|proj x q1 q2 b u| : ℝ) : EReal) := by
  rw [Spec.absS, s_coe, max_neg_coe]

theorem lK_coe (b : Fin 2048) (u : Fin 512) : Spec.lK X Q1 Q2 b u = (wt x q1 q2 b u : EReal) := by
  rw [Spec.lK, s_coe, absS_coe, qn_coe, wt, ← coe_choice]
  simp only [EReal.coe_neg', EReal.coe_lt_coe_iff]

/-! ## The reference's weight, nondegenerate segment -/

theorem kv_coe (b : Fin 2048) (u : Fin 512) (hN : len q1 q2 u ≠ 0) (n : Fin 64) :
    Spec.kv X Q1 Q2 b u n = ((proj x q1 q2 b u / len q1 q2 u * dir q1 q2 u n : ℝ) : EReal) := by
  rw [Spec.kv, s_coe, qn_coe, q12_coe, div_coe_coe _ _ hN, ← EReal.coe_mul]

theorem real_temp1 (b : Fin 2048) (u : Fin 512) (hN : len q1 q2 u ≠ 0) :
    ∑ n, (proj x q1 q2 b u / len q1 q2 u * dir q1 q2 u n) * dir q1 q2 u n
      = proj x q1 q2 b u * len q1 q2 u := by
  have h : ∑ n, (proj x q1 q2 b u / len q1 q2 u * dir q1 q2 u n) * dir q1 q2 u n
      = proj x q1 q2 b u / len q1 q2 u * len2 q1 q2 u := by
    rw [len2, Finset.mul_sum]
    exact Finset.sum_congr rfl fun n _ => by ring
  rw [h, ← len_mul_self]
  field_simp

theorem real_knorm2 (b : Fin 2048) (u : Fin 512) (hN : len q1 q2 u ≠ 0) :
    ∑ n, (proj x q1 q2 b u / len q1 q2 u * dir q1 q2 u n) * (proj x q1 q2 b u / len q1 q2 u * dir q1 q2 u n)
      = proj x q1 q2 b u * proj x q1 q2 b u := by
  have h : ∑ n, (proj x q1 q2 b u / len q1 q2 u * dir q1 q2 u n) * (proj x q1 q2 b u / len q1 q2 u * dir q1 q2 u n)
      = (proj x q1 q2 b u / len q1 q2 u) * (proj x q1 q2 b u / len q1 q2 u) * len2 q1 q2 u := by
    rw [len2, Finset.mul_sum]
    exact Finset.sum_congr rfl fun n _ => by ring
  rw [h, ← len_mul_self]
  field_simp

theorem temp1_coe (b : Fin 2048) (u : Fin 512) (hN : len q1 q2 u ≠ 0) :
    Spec.temp1 X Q1 Q2 b u = ((proj x q1 q2 b u * len q1 q2 u : ℝ) : EReal) := by
  simp only [Spec.temp1, kv_coe x q1 q2 b u hN, q12_coe]
  rw [sum_mul_coe, real_temp1 x q1 q2 b u hN]

theorem knorm_coe (b : Fin 2048) (u : Fin 512) (hN : len q1 q2 u ≠ 0) :
    Spec.knorm X Q1 Q2 b u = ((|proj x q1 q2 b u| : ℝ) : EReal) := by
  simp only [Spec.knorm, kv_coe x q1 q2 b u hN]
  rw [sum_mul_coe, real_knorm2 x q1 q2 b u hN, Ideal.sqrt_coe, if_neg (not_lt.mpr (mul_self_nonneg _)),
    Real.sqrt_mul_self_eq_abs]

theorem temp2_coe (b : Fin 2048) (u : Fin 512) (hN : len q1 q2 u ≠ 0) :
    Spec.temp2 X Q1 Q2 b u = ((|proj x q1 q2 b u| / len q1 q2 u : ℝ) : EReal) := by
  rw [Spec.temp2, knorm_coe x q1 q2 b u hN, qn_coe, div_coe_coe _ _ hN]

theorem lR_coe_pos (b : Fin 2048) (u : Fin 512) (hQ : len2 q1 q2 u ≠ 0) :
    Spec.lR X Q1 Q2 b u = (wt x q1 q2 b u : EReal) := by
  have hpos : 0 < len q1 q2 u := len_pos q1 q2 u hQ
  have hN : len q1 q2 u ≠ 0 := hpos.ne'
  have h1 : proj x q1 q2 b u * len q1 q2 u < 0 ↔ proj x q1 q2 b u < 0 := by
    constructor
    · intro h
      by_contra h'
      exact absurd h (not_lt.mpr (mul_nonneg (not_lt.mp h') hpos.le))
    · intro h
      exact mul_neg_of_neg_of_pos h hpos
  rw [Spec.lR, temp1_coe x q1 q2 b u hN, temp2_coe x q1 q2 b u hN, knorm_coe x q1 q2 b u hN, wt, ← coe_choice]
  simp only [EReal.coe_neg', coe_lt_one_iff, h1, div_lt_one hpos]

/-! ## The reference's weight, degenerate segment -/

theorem kv_zero (b : Fin 2048) (u : Fin 512) (hQ : len2 q1 q2 u = 0) (n : Fin 64) :
    Spec.kv X Q1 Q2 b u n = 0 := by
  rw [Spec.kv, q12_coe, dir_eq_zero q1 q2 u hQ n, EReal.coe_zero, mul_zero]

theorem lR_coe_zero (b : Fin 2048) (u : Fin 512) (hQ : len2 q1 q2 u = 0) :
    Spec.lR X Q1 Q2 b u = (wt x q1 q2 b u : EReal) := by
  have hlen : len q1 q2 u = 0 := by rw [len, hQ, Real.sqrt_zero]
  have hproj : proj x q1 q2 b u = 0 := by
    simp only [proj, dir_eq_zero q1 q2 u hQ, mul_zero, Finset.sum_const_zero, sub_zero]
  have hwt : wt x q1 q2 b u = 0 := by
    simp only [wt, hproj, hlen, abs_zero, lt_irrefl, if_false]
  have ht1 : Spec.temp1 X Q1 Q2 b u = 0 := by
    simp only [Spec.temp1, kv_zero x q1 q2 b u hQ, zero_mul, Finset.sum_const_zero]
  have hk : Spec.knorm X Q1 Q2 b u = 0 := by
    simp only [Spec.knorm, kv_zero x q1 q2 b u hQ, zero_mul, Finset.sum_const_zero]
    exact sqrt_zero
  have ht2 : Spec.temp2 X Q1 Q2 b u = ⊥ := by
    rw [Spec.temp2, hk, qn_coe, hlen, EReal.coe_zero, Ideal.div, if_pos rfl, if_neg (lt_irrefl _)]
  rw [Spec.lR, ht1, ht2, hk, hwt, if_neg (lt_irrefl _), ite_self, EReal.coe_zero]

theorem lR_coe (b : Fin 2048) (u : Fin 512) : Spec.lR X Q1 Q2 b u = (wt x q1 q2 b u : EReal) := by
  by_cases hQ : len2 q1 q2 u = 0
  · exact lR_coe_zero x q1 q2 b u hQ
  · exact lR_coe_pos x q1 q2 b u hQ

/-! ## The two entries -/

theorem dR_coe (b : Fin 2048) (u : Fin 512) (n : Fin 64) :
    Spec.dR X Q1 Q2 b u n
      = ((x b n - (wt x q1 q2 b u * q1 u n + (1 - wt x q1 q2 b u) * q2 u n) : ℝ) : EReal) := by
  simp only [Spec.dR, lR_coe, EReal.coe_sub, EReal.coe_add, EReal.coe_mul, EReal.coe_one]

theorem outR_coe (b : Fin 2048) (u : Fin 512) (hden : 64 * (r u * r u) ≠ 0) :
    Spec.outR X Q1 Q2 R b u
      = ((Real.exp (-(∑ n, (x b n - (wt x q1 q2 b u * q1 u n + (1 - wt x q1 q2 b u) * q2 u n))
            * (x b n - (wt x q1 q2 b u * q1 u n + (1 - wt x q1 q2 b u) * q2 u n))) / (64 * (r u * r u))) : ℝ) : EReal) := by
  simp only [Spec.outR, dR_coe]
  rw [sum_mul_coe, den_coe, ← EReal.coe_neg, div_coe_coe _ _ hden, Ideal.exp_coe]

theorem sumd2K_coe (b : Fin 2048) (u : Fin 512) :
    Spec.sumd2K X Q1 Q2 b u
      = ((((∑ n, x b n * x b n - 2 * ∑ n, x b n * q2 u n) + ∑ n, q2 u n * q2 u n)
          + (2 * wt x q1 q2 b u) * (∑ n, x b n * dir q1 q2 u n - ∑ n, q2 u n * dir q1 q2 u n)
          + (wt x q1 q2 b u * wt x q1 q2 b u) * len2 q1 q2 u : ℝ) : EReal) := by
  simp only [Spec.sumd2K, xx_coe, xq2_coe, q2q2_coe, lK_coe, xq12_coe, q2q12_coe, qn2_coe,
    EReal.coe_add, EReal.coe_sub, EReal.coe_mul]

theorem coef_coe (u : Fin 512) (hden : 64 * (r u * r u) ≠ 0) :
    Spec.coef R u = ((-1 / (64 * (r u * r u)) : ℝ) : EReal) := by
  rw [Spec.coef, den_coe, div_coe_coe _ _ hden]

/-- The reference's entry and the kernel's entry agree on finite inputs with nonzero radii. -/
theorem outR_eq_outK (hr : ∀ u, r u ≠ 0) (b : Fin 2048) (u : Fin 512) :
    Spec.outR X Q1 Q2 R b u = Spec.outK X Q1 Q2 R b u := by
  have hden : 64 * (r u * r u) ≠ 0 := mul_ne_zero (by norm_num) (mul_ne_zero (hr u) (hr u))
  rw [outR_coe x q1 q2 r b u hden, Spec.outK, sumd2K_coe, coef_coe r u hden, ← EReal.coe_mul, Ideal.exp_coe,
    real_expand (x b) (q1 u) (q2 u) (wt x q1 q2 b u)]
  simp only [len2, dir]
  congr 2
  ring

end

end Cert.Algebra

end
-- ==== Proof.Bridge.lean ====
/-
  From finite extended reals to real numbers: the comparison of the two entries in Proof/Algebra.lean is stated for
  arrays of real numbers; an array of extended reals none of which is infinite is the coercion of such an array.
-/
import proofs.«112784_j62148176773493_2_alg».proof.Proof.Algebra

noncomputable section

namespace Cert.Bridge

open Idealize.ShloMosaic

/-- The two entries agree as soon as every input entry is finite and every radius is nonzero: finite extended reals
    are coercions of reals, and on those the two sides were compared in Proof/Algebra.lean. -/
theorem outR_eq_outK_of_finite (x : Fin 2048 → Fin 64 → EReal) (q1 q2 : Fin 512 → Fin 64 → EReal) (r : Fin 512 → EReal)
    (hx : ∀ b n, x b n ≠ ⊤ ∧ x b n ≠ ⊥) (hq1 : ∀ u n, q1 u n ≠ ⊤ ∧ q1 u n ≠ ⊥) (hq2 : ∀ u n, q2 u n ≠ ⊤ ∧ q2 u n ≠ ⊥)
    (hr : ∀ u, r u ≠ ⊤ ∧ r u ≠ ⊥) (hr0 : ∀ u, r u ≠ 0) (b : Fin 2048) (u : Fin 512) :
    Cert.Spec.outR x q1 q2 r b u = Cert.Spec.outK x q1 q2 r b u := by
  obtain ⟨x', hx'⟩ := RankFactor.exists_real (fun p : Fin 2048 × Fin 64 => x p.1 p.2) (fun p => hx p.1 p.2)
  obtain ⟨q1', hq1'⟩ := RankFactor.exists_real (fun p : Fin 512 × Fin 64 => q1 p.1 p.2) (fun p => hq1 p.1 p.2)
  obtain ⟨q2', hq2'⟩ := RankFactor.exists_real (fun p : Fin 512 × Fin 64 => q2 p.1 p.2) (fun p => hq2 p.1 p.2)
  obtain ⟨r', hr'⟩ := RankFactor.exists_real r hr
  have ex : x = fun b n => ((x' (b, n) : ℝ) : EReal) := funext fun b => funext fun n => hx' (b, n)
  have e1 : q1 = fun u n => ((q1' (u, n) : ℝ) : EReal) := funext fun u => funext fun n => hq1' (u, n)
  have e2 : q2 = fun u n => ((q2' (u, n) : ℝ) : EReal) := funext fun u => funext fun n => hq2' (u, n)
  have er : r = fun u => ((r' u : ℝ) : EReal) := funext hr'
  have hr0' : ∀ u, r' u ≠ 0 := fun u h0 => hr0 u (by rw [hr' u, h0]; rfl)
  rw [ex, e1, e2, er]
  exact Cert.Algebra.outR_eq_outK (fun b n => x' (b, n)) (fun u n => q1' (u, n)) (fun u n => q2' (u, n)) r' hr0' b u

end Cert.Bridge

end
-- ==== Proof.PreDecode.lean ====
/-
  What the precondition says of the four input arrays.

  The printed predicate compares, entry by entry, the absolute value max x (-x) of each input with +∞ (strictly below)
  and each radius with 0 (different), folds each array of one-bit answers by "and" starting from 1, and "and"s the
  five folded bits together.  The claim assumes that the result is 1.  An "and" is 1 only if both operands are, and a
  fold by "and" over a whole array that ends in 1 met a 1 at every entry; so every comparison came out 1.  On the
  extended reals max x (-x) < ⊤ says that x is neither ⊤ nor ⊥, and the second comparison says that x ≠ 0.
-/
import proofs.«112784_j62148176773493_2_alg».proof.Pre_finite_inputs
import proofs.«112784_j62148176773493_2_alg».proof.Proof.Gen.Pre_finite_inputs
import proofs.«112784_j62148176773493_2_alg».proof.Proof.LibRankFactor
import Idealize.ShloMosaic.Lib.ReduceAll
import Idealize.ShloMosaic.Lib.ValueIdx
import Idealize.ShloMosaic.PureOps.Ideal.Laws

noncomputable section

namespace Cert.PreDecode

open Idealize.ShloMosaic Cert.Pre_finite_inputs

/-- The shape of a scalar has one index. -/
instance : Subsingleton S_.Idx := ⟨fun a b => funext fun d => d.elim0⟩

/-- The word of +∞. -/
theorem top_word : Ideal.ofBits .f32 0x7F800000#32 = ⊤ := by
  simp [Ideal.ofBits, Ideal.ieee]

/-- The word of zero. -/
theorem zero_word : Ideal.ofBits .f32 0x00000000#32 = 0 := by
  simp [Ideal.ofBits, Ideal.ieee]

theorem ofBool_eq_one {b : Bool} : BitVec.ofBool b = 1#1 ↔ b = true := by
  cases b <;> decide

/-- A "less than" comparison that answers 1. -/
theorem cmp_olt_eq_one {x y : EReal} : Ideal.cmp .olt x y = 1#1 ↔ x < y := by
  simp only [Ideal.cmp, ofBool_eq_one, decide_eq_true_eq]

/-- A "not equal" comparison that answers 1. -/
theorem cmp_une_eq_one {x y : EReal} : Ideal.cmp .une x y = 1#1 ↔ x ≠ y := by
  simp only [Ideal.cmp, ofBool_eq_one, decide_eq_true_eq]

/-- An entry whose absolute value compares below +∞ is finite. -/
theorem finite_of_bit (x : EReal)
    (h : Ideal.cmp .olt (max x (-x)) (Ideal.ofBits .f32 0x7F800000#32) = 1#1) : x ≠ ⊤ ∧ x ≠ ⊥ := by
  rw [top_word, cmp_olt_eq_one] at h
  exact RankFactor.finite_of_abs_lt_top h

/-- An entry that compares different from the zero word is not zero. -/
theorem ne_zero_of_bit (x : EReal)
    (h : Ideal.cmp .une x (Ideal.ofBits .f32 0x00000000#32) = 1#1) : x ≠ 0 := by
  rw [zero_word, cmp_une_eq_one] at h
  exact h

/-- The precondition, decoded: all four inputs are finite everywhere and no radius is zero. -/
theorem decode [Cert.Pre_finite_inputs.Facts]
    (a0 : FVec Ideal S2048x64 .f32) (a1 a2 : FVec Ideal S512x64 .f32) (a3 : FVec Ideal S512 .f32)
    (h : Cert.Pre_finite_inputs.fn (F := Ideal) a0 a1 a2 a3 = (fun _ => 1#1)) :
    (∀ i, a0 i ≠ ⊤ ∧ a0 i ≠ ⊥) ∧ (∀ i, a1 i ≠ ⊤ ∧ a1 i ≠ ⊥) ∧ (∀ i, a2 i ≠ ⊤ ∧ a2 i ≠ ⊥)
      ∧ (∀ i, a3 i ≠ ⊤ ∧ a3 i ≠ ⊥) ∧ (∀ i, a3 i ≠ 0) := by
  have h0 := congrFun h ValueIdx.ix0
  dsimp only [fn, fn_part1, andi] at h0
  simp only [IntOp.andi_eq_one] at h0
  obtain ⟨⟨⟨⟨e0, e1⟩, e2⟩, e3⟩, e4⟩ := h0
  exact ⟨fun i => finite_of_bit (a0 i) (Host.reduce_andi_all _ _ _ _ _ e0 i),
    fun i => finite_of_bit (a1 i) (Host.reduce_andi_all _ _ _ _ _ e1 i),
    fun i => finite_of_bit (a2 i) (Host.reduce_andi_all _ _ _ _ _ e2 i),
    fun i => finite_of_bit (a3 i) (Host.reduce_andi_all _ _ _ _ _ e3 i),
    fun i => ne_zero_of_bit (a3 i) (Host.reduce_andi_all _ _ _ _ _ e4 i)⟩

end Cert.PreDecode

end
-- ==== Proof.lean ====
/-
  The certificate of one kernel against its reference.

  For 2048 points `x b` in a 64-dimensional space and 512 units, each a segment from `q1 u` to `q2 u` with a radius
  `r u`, both programs return the 2048 x 512 array of `exp (-|x b - centre|² / (64 · r u ²))`, where the centre is
  the point of the segment picked by a weight `l`: `l = 1` where the projection `s = (x - q1)·(q2 - q1)` is negative,
  `l = |s|` where that is below the segment's length, else `l = 0`.

  * The reference builds the projection vector, takes its inner product with the direction and its norm, picks the
    weight from those, forms the centre and sums the squared differences coordinate by coordinate.
  * The kernel first computes, for every unit, five inner products, the length and the factor `-1 / (64 · r²)`, packs
    them as the rows of one small array, lays the directions and the segment ends side by side as one 64 x 1024 array,
    and then, for each block of 1024 points, multiplies the block into that array, picks the weight from the sign of
    `s` and the comparison `|s| < length`, and expands the squared distance instead of forming the centre.

  The claim is made for finite inputs with every radius nonzero (at a zero radius the reference itself divides by
  zero).  The parts: the two kernel programs run to the end and leave the arguments alone (Proof/FrameKernel.lean,
  Proof/FrameKernelIdeal.lean); what one entry of a block is (Proof/KernelCell.lean), what the two packed operands hold
  (Proof/KernelOperands.lean), and the result array as one function of the arguments (Proof/KernelArray.lean); the
  reference's result entry by entry (Proof/RefRead.lean); the two entries as functions on the extended reals
  (Proof/Spec.lean) and their equality on finite inputs (Proof/Algebra.lean, Proof/Bridge.lean); what the precondition
  says entry by entry (Proof/PreDecode.lean).  Nothing was rewritten between the kernel as compiled and the kernel read
  on the extended reals, so that conjunct is empty.
-/
import proofs.«112784_j62148176773493_2_alg».proof.Defs
import proofs.«112784_j62148176773493_2_alg».proof.Proof.Gen.Kernel
import proofs.«112784_j62148176773493_2_alg».proof.Proof.Gen.KernelIdeal
import proofs.«112784_j62148176773493_2_alg».proof.Proof.Gen.ReferenceIdeal
import proofs.«112784_j62148176773493_2_alg».proof.Proof.Gen.Pre_finite_inputs
import proofs.«112784_j62148176773493_2_alg».proof.Proof.Gen.ReferenceIdeal.Run
import proofs.«112784_j62148176773493_2_alg».proof.Proof.Gen.ReferenceIdeal.Read
import proofs.«112784_j62148176773493_2_alg».proof.Proof.FrameKernel
import proofs.«112784_j62148176773493_2_alg».proof.Proof.FrameKernelIdeal
import proofs.«112784_j62148176773493_2_alg».proof.Proof.KernelArray
import proofs.«112784_j62148176773493_2_alg».proof.Proof.KernelOperands
import proofs.«112784_j62148176773493_2_alg».proof.Proof.RefRead
import proofs.«112784_j62148176773493_2_alg».proof.Proof.Bridge
import proofs.«112784_j62148176773493_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The kernel's result array, entry by entry, is the kernel's entry of Proof/Spec.lean -/

section KernelSide
open Cert.KernelIdeal Cert.KernelIdeal.Gen

variable (m : (ℓ : Loc nD τ sig) → Buf (Elt Ideal) ℓ) (c : Dev nD)

/-- The argument arrays by coordinates. -/
abbrev xs : Fin 2048 → Fin 64 → EReal := fun b n => m ((c : Thread nD τ).loc main_arg0) (ix2 b n)
abbrev q1s : Fin 512 → Fin 64 → EReal := fun u n => m ((c : Thread nD τ).loc main_arg1) (ix2 u n)
abbrev q2s : Fin 512 → Fin 64 → EReal := fun u n => m ((c : Thread nD τ).loc main_arg2) (ix2 u n)
abbrev rs : Fin 512 → EReal := fun u => m ((c : Thread nD τ).loc main_arg3) (ix1 u)

/-- Entry `(b, u)` of the array the kernel leaves: the first argument is found as launched, the wide operand's two
    halves are the directions and the ends, and the small operand's rows are the per-unit numbers. -/
theorem kernel_entry (b : Fin 2048) (u : Fin 512) :
    Cert.KernelIdeal.Result.G m c (ix2 b u) = Cert.Spec.outK (xs m c) (q1s m c) (q2s m c) (rs m c) b u := by
  rw [Cert.KernelIdeal.Result.G_apply]
  have hX : ∀ j, Cert.KernelIdeal.Result.arrX m c j = m ((c : Thread nD τ).loc main_arg0) j :=
    fun j => congrFun (Cert.KernelIdeal.Frame.V_main_arg0 m c) j
  have hl : ∀ k, Cert.KernelIdeal.Result.arrW m c (ix2 k (Fin.castLE (by decide) u)) = Cert.Spec.q12 (q1s m c) (q2s m c) u k :=
    fun k => Cert.KernelIdeal.Operands.w_left_at m c k u
  have hr : ∀ k, Cert.KernelIdeal.Result.arrW m c (ix2 k (Fin.natAdd 512 u)) = q2s m c u k :=
    fun k => Cert.KernelIdeal.Operands.w_right_at m c k u
  have h0 : Cert.KernelIdeal.Result.arrS m c (ix2 0 u) = Cert.Spec.q1q12 (q1s m c) (q2s m c) u := Cert.KernelIdeal.Operands.st0_at m c u
  have h1 : Cert.KernelIdeal.Result.arrS m c (ix2 1 u) = Cert.Spec.q2q12 (q1s m c) (q2s m c) u := Cert.KernelIdeal.Operands.st1_at m c u
  have h2 : Cert.KernelIdeal.Result.arrS m c (ix2 2 u) = Cert.Spec.qn2 (q1s m c) (q2s m c) u := Cert.KernelIdeal.Operands.st2_at m c u
  have h3 : Cert.KernelIdeal.Result.arrS m c (ix2 3 u) = Cert.Spec.q2q2 (q2s m c) u := Cert.KernelIdeal.Operands.st3_at m c u
  have h4 : Cert.KernelIdeal.Result.arrS m c (ix2 4 u) = Cert.Spec.coef (rs m c) u := Cert.KernelIdeal.Operands.st4_at m c u
  have h5 : Cert.KernelIdeal.Result.arrS m c (ix2 5 u) = Cert.Spec.qn (q1s m c) (q2s m c) u := Cert.KernelIdeal.Operands.st5_at m c u
  simp only [hX, hl, hr, h0, h1, h2, h3, h4, h5]
  rfl

end KernelSide

/-! ## The claims -/

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's array is entry by entry the kernel's entry of the arguments, the reference's the reference's entry of
    arguments that agree with them, and on inputs the precondition admits the two entries are equal. -/
theorem algebraic : Cert.algebraic_KernelIdeal_ReferenceIdeal := by
  intro m ρ m' ρ' hpre hagree
  refine ⟨fun c => Cert.KernelIdeal.Result.G m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, u, rfl⟩ : ∃ (b : Fin 2048) (u : Fin 512), i = ix2 b u := ⟨i 0, i 1, eq_ix2 i⟩
  obtain ⟨f0, f1, f2, f3, f30⟩ := Cert.PreDecode.decode _ _ _ _ (hpre c)
  rw [Cert.ReferenceIdeal.RefValue.res_at m' c b u, (hagree c).1, (hagree c).2.1, (hagree c).2.2.1, (hagree c).2.2.2]
  refine (Cert.Bridge.outR_eq_outK_of_finite _ _ _ _ (fun b n => f0 _) (fun u n => f1 _) (fun u n => f2 _) (fun u => f3 _)
    (fun u => f30 _) b u).trans ?_
  exact (kernel_entry m c b u).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
